-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x3x3 : Shape := ⟨4, ![4, 1024, 3, 3]⟩
abbrev S4x1024 : Shape := ⟨2, ![4, 1024]⟩
abbrev S_ : Shape := ⟨0, ![]⟩

class Facts : Prop where
  bcast_S_S4x1024x3x3 : S_.BroadcastsInDim S4x1024x3x3 (![] : Fin 0 → Fin S4x1024x3x3.rank)
  reducesTo_S4x1024x3x3_S_d0_1_2_3 : S4x1024x3x3.ReducesTo [0, 1, 2, 3] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x3x3 .f32) (main_arg1 : FVec F S4x1024x3x3 .f32) (main_arg2 : FVec F S4x1024 .f32) : IVec S_ 1 :=
  let main_v0 : FVec F S4x1024x3x3 .f32 := Host.absf main_arg0
  let main_cst : FVec F S_ .f32 := constant S_ .f32 0x7F800000#32
  let main_v1 : FVec F S4x1024x3x3 .f32 := broadcastInDim S4x1024x3x3 ![] bcast_S_S4x1024x3x3 main_cst
  let main_v2 : IVec S4x1024x3x3 1 := cmpf .olt main_v0 main_v1
  let main_c : IVec S_ 1 := constantI S_ 1 1#1
  let main_v3 : IVec S_ 1 := (fun x v => Host.reduce IntOp.andi x v reducesTo_S4x1024x3x3_S_d0_1_2_3 h_S_) main_v2 main_c
  let main_v4 : FVec F S4x1024x3x3 .f32 := Host.absf main_arg1
  let main_cst_0 : FVec F S_ .f32 := constant S_ .f32 0x7F800000#32
  let main_v5 : FVec F S4x1024x3x3 .f32 := broadcastInDim S4x1024x3x3 ![] bcast_S_S4x1024x3x3 main_cst_0
  let main_v6 : IVec S4x1024x3x3 1 := cmpf .olt main_v4 main_v5
  let main_c_1 : IVec S_ 1 := constantI S_ 1 1#1
  let main_v7 : IVec S_ 1 := (fun x v => Host.reduce IntOp.andi x v reducesTo_S4x1024x3x3_S_d0_1_2_3 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S4x1024x3x3 : Shape := ⟨4, ![4, 1024, 3, 3]⟩
abbrev S4x1024 : Shape := ⟨2, ![4, 1024]⟩
abbrev S4x3072x3 : Shape := ⟨3, ![4, 3072, 3]⟩
abbrev S4x3x3072 : Shape := ⟨3, ![4, 3, 3072]⟩
abbrev S_ : Shape := ⟨0, ![]⟩
abbrev S4x3072 : Shape := ⟨2, ![4, 3072]⟩
abbrev S4x1024x1 : Shape := ⟨3, ![4, 1024, 1]⟩
abbrev S4x1024x3 : Shape := ⟨3, ![4, 1024, 3]⟩
abbrev S1x1 : Shape := ⟨2, ![1, 1]⟩
abbrev S4x3x256 : Shape := ⟨3, ![4, 3, 256]⟩
abbrev S4x256 : Shape := ⟨2, ![4, 256]⟩
abbrev S4x1x256 : Shape := ⟨3, ![4, 1, 256]⟩
abbrev S4x256x1 : Shape := ⟨3, ![4, 256, 1]⟩
abbrev S4x256x256 : Shape := ⟨3, ![4, 256, 256]⟩
abbrev S4x1 : Shape := ⟨2, ![4, 1]⟩
abbrev S4x1x1 : Shape := ⟨3, ![4, 1, 1]⟩

abbrev nBuf : Space → Nat
  | .hbm => 23
  | .vmem => 22
  | .smem => 0
  | _ => 0

abbrev bufTy : (tb : Table) → Fin (tcTables nBuf tb) → BufTy
  | .hbm, ⟨0, _⟩ => ⟨S4x1024x3x3, .f32⟩
  | .hbm, ⟨1, _⟩ => ⟨S4x1024x3x3, .f32⟩
  | .hbm, ⟨2, _⟩ => ⟨S4x1024, .f32⟩
  | .hbm, ⟨3, _⟩ => ⟨S4x3072x3, .f32⟩
  | .hbm, ⟨4, _⟩ => ⟨S4x3072x3, .f32⟩
  | .hbm, ⟨5, _⟩ => ⟨S4x3x3072, .f32⟩
  | .hbm, ⟨6, _⟩ => ⟨S4x3x3072, .f32⟩
  | .hbm, ⟨7, _⟩ => ⟨S4x3072x3, .f32⟩
  | .hbm, ⟨8, _⟩ => ⟨S_, .f32⟩
  | .hbm, ⟨9, _⟩ => ⟨S4x3072, .f32⟩
  | .hbm, ⟨10, _⟩ => ⟨S4x3072x3, .f32⟩
  | .hbm, ⟨11, _⟩ => ⟨S_, .f32⟩
  | .hbm, ⟨12, _⟩ => ⟨S4x3072, .f32⟩
  | .hbm, ⟨13, _⟩ => ⟨S4x1024x1, .f32⟩
  | .hbm, ⟨14, _⟩ => ⟨S4x1024x3, .f32⟩
  | .hbm, ⟨15, _⟩ => ⟨S4x3072, .f32⟩
  | .hbm, ⟨16, _⟩ => ⟨S1x1, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S4x3x256, .f32⟩
  | .local _ .vmem, ⟨1, _⟩ => ⟨S4x3x256, .f32⟩
  | .local _ .vmem, ⟨2, _⟩ => ⟨S4x3x256, .f32⟩
  | .local _ .vmem, ⟨3, _⟩ => ⟨S4x3x256, .f32⟩
  | .local _ .vmem, ⟨4, _⟩ => ⟨S4x3x256, .f32⟩
  | .local _ .vmem, ⟨5, _⟩ => ⟨S4x3x256, .f32⟩
  | .local _ .vmem, ⟨6, _⟩ => ⟨S4x3x256, .f32⟩
  | .local _ .vmem, ⟨7, _⟩ => ⟨S4x3x256, .f32⟩
  | .local _ .vmem, ⟨8, _⟩ => ⟨S4x256, .f32⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S4x256, .f32⟩
  | .local _ .vmem, ⟨15, _⟩ => ⟨S4x256, .f32⟩
  | .local _ .vmem, ⟨16, _⟩ => ⟨S4x256, .f32⟩
  | .local _ .vmem, ⟨17, _⟩ => ⟨S4x256, .f32⟩
  | .local _ .vmem, ⟨18, _⟩ => ⟨S4x256, .f32⟩
  | .local _ .vmem, ⟨19, _⟩ => ⟨S4x256, .f32⟩
  | .local _ .vmem, ⟨20, _⟩ => ⟨S1x1, .f32⟩
  | .local _ .vmem, ⟨21, _⟩ => ⟨S1x1, .f32⟩
  | _, _ => ⟨S4x1024x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21

abbrev nD : Nat := 1
abbrev τ : Topo := Topo.v7x

variable {F : FTy → Type} [FloatOps F]

abbrev grid0 : Pipeline.Grid := ⟨2, ![12, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

class Facts₀ : Prop where
  shapeCasts_S4x1024x3x3_S4x3072x3 : S4x1024x3x3.ShapeCasts S4x3072x3
  transposes_S4x3072x3_S4x3x3072_0_2_1 : S4x3072x3.Transposes [0, 2, 1] S4x3x3072
  reducesTo_S4x3072x3_S4x3072_d2 : S4x3072x3.ReducesTo [2] S4x3072
  h_S_ : 0 < S_.numel
  bcast_S4x1024_S4x1024x1_0_1 : S4x1024.BroadcastsInDim S4x1024x1 (![0, 1] : Fin 2 → Fin S4x1024x1.rank)
  bcast_S4x1024x1_S4x1024x3_0_1_2 : S4x1024x1.BroadcastsInDim S4x1024x3 (![0, 1, 2] : Fin 3 → Fin S4x1024x3.rank)
  shapeCasts_S4x1024x3_S4x3072 : S4x1024x3.ShapeCasts S4x3072
  inb_S1x1_S1x1_0_0 : ∀ a, (![0, 0] : Fin 2 → Nat) a + S1x1.size a ≤ S1x1.size a
  h_S1x1 : 0 < S1x1.numel
  inb_S4x3x256_S4x3x256_0_0_0 : ∀ a, (![0, 0, 0] : Fin 3 → Nat) a + S4x3x256.size a ≤ S4x3x256.size a
  h_S4x3x256 : 0 < S4x3x256.numel
  shapeCasts_S4x3x256_S4x3x256 : S4x3x256.ShapeCasts S4x3x256
  slices_S4x3x256_o0_0_0_S4x1x256 : S4x3x256.Slices ![0, 0, 0] S4x1x256
  shapeCasts_S4x1x256_S4x256 : S4x1x256.ShapeCasts S4x256
  shapeCasts_S4x256_S4x256x1 : S4x256.ShapeCasts S4x256x1
  shapeCasts_S4x256_S4x1x256 : S4x256.ShapeCasts S4x1x256
  broadcasts_S4x256x1_S4x256x256 : S4x256x1.Broadcasts S4x256x256
  broadcasts_S4x1x256_S4x256x256 : S4x1x256.Broadcasts S4x256x256
  slices_S4x3x256_o0_1_0_S4x1x256 : S4x3x256.Slices ![0, 1, 0] S4x1x256
  slices_S4x3x256_o0_2_0_S4x1x256 : S4x3x256.Slices ![0, 2, 0] S4x1x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  shapeCasts_S1x1_S1x1 : S1x1.ShapeCasts S1x1
  reduces_S4x256x256_S4x256 : S4x256x256.Reduces [2] S4x256
  reduces_S4x256x1_S4x1 : S4x256x1.Reduces [1] S4x1
  shapeCasts_S4x1_S4x1x1 : S4x1.ShapeCasts S4x1x1
  reduces_S4x1x1_S1x1 : S4x1x1.Reduces [0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256.size a ≤ S4x3x3072.size a
  hwx0_0 : ∀ i : grid0.Coords, EltTy.bits .f32 = 32 ∨ (Rect.block (s := S4x3x3072) S4x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x256.size a ≤ S4x3x3072.size a
  hwx0_1 : ∀ i : grid0.Coords, EltTy.bits .f32 = 32 ∨ (Rect.block (s := S4x3x3072) S4x3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x3x256.size a ≤ S4x3x3072.size a
  hwx0_2 : ∀ i : grid0.Coords, EltTy.bits .f32 = 32 ∨ (Rect.block (s := S4x3x3072) S4x3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x3x256.size a ≤ S4x3x3072.size a
  hwx0_3 : ∀ i : grid0.Coords, EltTy.bits .f32 = 32 ∨ (Rect.block (s := S4x3x3072) S4x3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x3072.size a
  hwx0_4 : ∀ i : grid0.Coords, EltTy.bits .f32 = 32 ∨ (Rect.block (s := S4x3072) S4x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x3072.size a
  hwx0_5 : ∀ i : grid0.Coords, EltTy.bits .f32 = 32 ∨ (Rect.block (s := S4x3072) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x3072.size a
  hwx0_6 : ∀ i : grid0.Coords, EltTy.bits .f32 = 32 ∨ (Rect.block (s := S4x3072) S4x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256.size a ≤ S4x3072.size a
  hwx0_7 : ∀ i : grid0.Coords, EltTy.bits .f32 = 32 ∨ (Rect.block (s := S4x3072) S4x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x3072.size a
  hwx0_8 : ∀ i : grid0.Coords, EltTy.bits .f32 = 32 ∨ (Rect.block (s := S4x3072) S4x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x256.size a ≤ S4x3072.size a
  hwx0_9 : ∀ i : grid0.Coords, EltTy.bits .f32 = 32 ∨ (Rect.block (s := S4x3072) S4x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)

variable [Facts₀]

abbrev win0_0 : Pipeline.Window sig grid0 :=
  Pipeline.Window.ofSpec (Memref.whole main_v2) S4x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x3x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x3x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S4x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10) S4x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_0) S1x1.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_1) S1x1.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x1024x3x3 : Shape := ⟨4, ![4, 1024, 3, 3]⟩
abbrev S4x1024 : Shape := ⟨2, ![4, 1024]⟩
abbrev S4x3072x3 : Shape := ⟨3, ![4, 3072, 3]⟩
abbrev S_ : Shape := ⟨0, ![]⟩
abbrev S4x3072 : Shape := ⟨2, ![4, 3072]⟩
abbrev S4x3072x1 : Shape := ⟨3, ![4, 3072, 1]⟩
abbrev S4x1x3072 : Shape := ⟨3, ![4, 1, 3072]⟩
abbrev S4x3072x3072 : Shape := ⟨3, ![4, 3072, 3072]⟩
abbrev S4x1024x1 : Shape := ⟨3, ![4, 1024, 1]⟩
abbrev S4x1024x3 : Shape := ⟨3, ![4, 1024, 3]⟩

abbrev nBuf : Space → Nat
  | .hbm => 91
  | .vmem => 0
  | .smem => 0
  | _ => 0

abbrev bufTy : (tb : Table) → Fin (tcTables nBuf tb) → BufTy
  | .hbm, ⟨0, _⟩ => ⟨S4x1024x3x3, .f32⟩
  | .hbm, ⟨1, _⟩ => ⟨S4x1024x3x3, .f32⟩
  | .hbm, ⟨2, _⟩ => ⟨S4x1024, .f32⟩
  | .hbm, ⟨3, _⟩ => ⟨S4x3072x3, .f32⟩
  | .hbm, ⟨4, _⟩ => ⟨S4x3072x3, .f32⟩
  | .hbm, ⟨5, _⟩ => ⟨S4x3072x3, .f32⟩
  | .hbm, ⟨6, _⟩ => ⟨S_, .f32⟩
  | .hbm, ⟨7, _⟩ => ⟨S4x3072, .f32⟩
  | .hbm, ⟨8, _⟩ => ⟨S4x3072x1, .f32⟩
  | .hbm, ⟨9, _⟩ => ⟨S4x1x3072, .f32⟩
  | .hbm, ⟨10, _⟩ => ⟨S4x3072x3072, .f32⟩
  | .hbm, ⟨11, _⟩ => ⟨S4x3072x3072, .f32⟩
  | .hbm, ⟨12, _⟩ => ⟨S4x3072x3072, .f32⟩
  | .hbm, ⟨13, _⟩ => ⟨S4x3072x3072, .f32⟩
  | .hbm, ⟨14, _⟩ => ⟨S_, .f32⟩
  | .hbm, ⟨15, _⟩ => ⟨S4x3072x3072, .f32⟩
  | .hbm, ⟨16, _⟩ => ⟨S4x3072x3072, .f32⟩
  | .hbm, ⟨17, _⟩ => ⟨S4x3072x3072, .f32⟩
  | .hbm, ⟨18, _⟩ => ⟨S_, .f32⟩
  | .hbm, ⟨19, _⟩ => ⟨S4x3072x3072, .f32⟩
  | .hbm, ⟨20, _⟩ => ⟨S4x3072x3072, .f32⟩
  | .hbm, ⟨21, _⟩ => ⟨S_, .f32⟩
  | .hbm, ⟨22, _⟩ => ⟨S4x3072x3072, .f32⟩
  | .hbm, ⟨23, _⟩ => ⟨S4x3072x3072, .i1⟩
  | .hbm, ⟨24, _⟩ => ⟨S_, .f32⟩
  | .hbm, ⟨25, _⟩ => ⟨S4x3072x3072, .f32⟩
  | .hbm, ⟨26, _⟩ => ⟨S4x3072x3072, .i1⟩
  | .hbm, ⟨27, _⟩ => ⟨S_, .f32⟩
  | .hbm, ⟨28, _⟩ => ⟨S_, .f32⟩
  | .hbm, ⟨29, _⟩ => ⟨S4x3072x3072, .f32⟩
  | .hbm, ⟨30, _⟩ => ⟨S4x3072x3072, .f32⟩
  | .hbm, ⟨31, _⟩ => ⟨S4x3072x3072, .f32⟩
  | .hbm, ⟨32, _⟩ => ⟨S_, .f32⟩
  | .hbm, ⟨33, _⟩ => ⟨S_, .f32⟩
  | .hbm, ⟨34, _⟩ => ⟨S4x3072x3072, .f32⟩
  | .hbm, ⟨35, _⟩ => ⟨S4x3072x3072, .f32⟩
  | .hbm, ⟨36, _⟩ => ⟨S_, .f32⟩
  | .hbm, ⟨37, _⟩ => ⟨S4x3072x3072, .f32⟩
  | .hbm, ⟨38, _⟩ => ⟨S4x3072x3072, .f32⟩
  | .hbm, ⟨39, _⟩ => ⟨S4x3072x3, .f32⟩
  | .hbm, ⟨40, _⟩ => ⟨S_, .f32⟩
  | .hbm, ⟨41, _⟩ => ⟨S4x3072, .f32⟩
  | .hbm, ⟨42, _⟩ => ⟨S4x3072x1, .f32⟩
  | .hbm, ⟨43, _⟩ => ⟨S4x1x3072, .f32⟩
  | .hbm, ⟨44, _⟩ => ⟨S4x3072x3072, .f32⟩
  | .hbm, ⟨45, _⟩ => ⟨S4x3072x3072, .f32⟩
  | .hbm, ⟨46, _⟩ => ⟨S4x3072x3072, .f32⟩
  | .hbm, ⟨47, _⟩ => ⟨S4x3072x3072, .f32⟩
  | .hbm, ⟨48, _⟩ => ⟨S_, .f32⟩
  | .hbm, ⟨49, _⟩ => ⟨S4x3072x3072, .f32⟩
  | .hbm, ⟨50, _⟩ => ⟨S4x3072x3072, .f32⟩
  | .hbm, ⟨51, _⟩ => ⟨S4x3072x3072, .f32⟩
  | .hbm, ⟨52, _⟩ => ⟨S_, .f32⟩
  | .hbm, ⟨53, _⟩ => ⟨S4x3072x3072, .f32⟩
  | .hbm, ⟨54, _⟩ => ⟨S4x3072x3072, .f32⟩
  | .hbm, ⟨55, _⟩ => ⟨S_, .f32⟩
  | .hbm, ⟨56, _⟩ => ⟨S4x3072x3072, .f32⟩
  | .hbm, ⟨57, _⟩ => ⟨S4x3072x3072, .i1⟩
  | .hbm, ⟨58, _⟩ => ⟨S_, .f32⟩
  | .hbm, ⟨59, _⟩ => ⟨S4x3072x3072, .f32⟩
  | .hbm, ⟨60, _⟩ => ⟨S4x3072x3072, .i1⟩
  | .hbm, ⟨61, _⟩ => ⟨S_, .f32⟩
  | .hbm, ⟨62, _⟩ => ⟨S_, .f32⟩
  | .hbm, ⟨63, _⟩ => ⟨S4x3072x3072, .f32⟩
  | .hbm, ⟨64, _⟩ => ⟨S4x3072x3072, .f32⟩
  | .hbm, ⟨65, _⟩ => ⟨S4x3072x3072, .f32⟩
  | .hbm, ⟨66, _⟩ => ⟨S_, .f32⟩
  | .hbm, ⟨67, _⟩ => ⟨S_, .f32⟩
  | .hbm, ⟨68, _⟩ => ⟨S4x3072x3072, .f32⟩
  | .hbm, ⟨69, _⟩ => ⟨S4x3072x3072, .f32⟩
  | .hbm, ⟨70, _⟩ => ⟨S4x3072x3072, .f32⟩
  | .hbm, ⟨71, _⟩ => ⟨S4x3072x3072, .f32⟩
  | .hbm, ⟨72, _⟩ => ⟨S_, .f32⟩
  | .hbm, ⟨73, _⟩ => ⟨S4x3072x3072, .f32⟩
  | .hbm, ⟨74, _⟩ => ⟨S4x3072x3072, .f32⟩
  | .hbm, ⟨75, _⟩ => ⟨S4x1024x1, .f32⟩
  | .hbm, ⟨76, _⟩ => ⟨S4x1024x3, .f32⟩
  | .hbm, ⟨77, _⟩ => ⟨S4x3072, .f32⟩
  | .hbm, ⟨78, _⟩ => ⟨S4x1x3072, .f32⟩
  | .hbm, ⟨79, _⟩ => ⟨S4x3072x1, .f32⟩
  | .hbm, ⟨80, _⟩ => ⟨S4x3072x3072, .f32⟩
  | .hbm, ⟨81, _⟩ => ⟨S4x3072x3072, .f32⟩
  | .hbm, ⟨82, _⟩ => ⟨S4x3072x3072, .f32⟩
  | .hbm, ⟨83, _⟩ => ⟨S4x3072x3072, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4x1024x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_call2_v0 : Ref sig .tc := ⟨.hbm, 62, rfl⟩
abbrev main_call2_v1 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_call3_v0 : Ref sig .tc := ⟨.hbm, 67, rfl⟩
abbrev main_call3_v1 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  shapeCasts_S4x1024x3x3_S4x3072x3 : S4x1024x3x3.ShapeCasts S4x3072x3
  reducesTo_S4x3072x3_S4x3072_d2 : S4x3072x3.ReducesTo [2] S4x3072
  h_S_ : 0 < S_.numel
  bcast_S4x3072_S4x3072x1_0_1 : S4x3072.BroadcastsInDim S4x3072x1 (![0, 1] : Fin 2 → Fin S4x3072x1.rank)
  bcast_S4x3072_S4x1x3072_0_2 : S4x3072.BroadcastsInDim S4x1x3072 (![0, 2] : Fin 2 → Fin S4x1x3072.rank)
  bcast_S4x3072x1_S4x3072x3072_0_1_2 : S4x3072x1.BroadcastsInDim S4x3072x3072 (![0, 1, 2] : Fin 3 → Fin S4x3072x3072.rank)
  bcast_S4x1x3072_S4x3072x3072_0_1_2 : S4x1x3072.BroadcastsInDim S4x3072x3072 (![0, 1, 2] : Fin 3 → Fin S4x3072x3072.rank)
  bcast_S_S4x3072x3072 : S_.BroadcastsInDim S4x3072x3072 (![] : Fin 0 → Fin S4x3072x3072.rank)
  bcast_S4x1024_S4x1024x1_0_1 : S4x1024.BroadcastsInDim S4x1024x1 (![0, 1] : Fin 2 → Fin S4x1024x1.rank)
  bcast_S4x1024x1_S4x1024x3_0_1_2 : S4x1024x1.BroadcastsInDim S4x1024x3 (![0, 1, 2] : Fin 3 → Fin S4x1024x3.rank)
  shapeCasts_S4x1024x3_S4x3072 : S4x1024x3.ShapeCasts S4x3072
  reducesTo_S4x3072x3072_S_d0_1_2 : S4x3072x3072.ReducesTo [0, 1, 2] S_
  dot_S4x3072x3_S4x3072x3_S4x3072x3072_2_2_1_1_0_0_wf : DotDims.WF S4x3072x3 S4x3072x3 S4x3072x3072 [2] [2] [1] [1] [0] [0]

variable [Facts₀]

def dot_S4x3072x3_S4x3072x3_S4x3072x3072_2_2_1_1_0_0 : DotDims S4x3072x3 S4x3072x3 S4x3072x3072 where
  lhsContracting := [2]
  rhsContracting := [2]
  lhsNonContracting := [1]
  rhsNonContracting := [1]
  lhsBatch := [0]
  rhsBatch := [0]
  wf := dot_S4x3072x3_S4x3072x3_S4x3072x3072_2_2_1_1_0_0_wf

class Facts : Prop extends Facts₀ where

variable [Facts]
-- ==== Proof.KIKit.lean ====
/-
  The kernel body of the pairwise loss, run once per control case on whole staging buffers.

  The body branches once, on "this is grid point (0, 0)": there it first stores zero into both accumulators. In
  either case it then loads the ten input blocks, loads each accumulator, and stores the accumulator plus this
  tile's sum back. What follows states the branch condition over the grid coordinates and decides where on the
  grid it holds.
-/
import proofs.«117279_j27805618274450_2_alg».proof.Proof.Gen.KernelIdeal.Launch
import proofs.«117279_j27805618274450_2_alg».proof.Proof.Gen.KernelIdeal.Skeleton
import proofs.«117279_j27805618274450_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-- One staging buffer of each accumulator window, through which its contents are stated. -/
abbrev VO10 : View sig .tc .vmem S1x1 .f32 := (Memref.whole cc0_stg10_0 : Memref sig .tc .vmem S1x1 .f32).view
abbrev VO11 : View sig .tc .vmem S1x1 .f32 := (Memref.whole cc0_stg11_0 : Memref sig .tc .vmem S1x1 .f32).view

end Cert.KernelIdeal.Hand

end
-- ==== Proof.KIRunB.lean ====
/-
  The body at a grid point other than the first: both accumulators are read before they are stored, so each
  staging buffer is taken at its running contents; the stores each leaves are found by running the body.
-/
import proofs.«117279_j27805618274450_2_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two accumulators' staging buffers, as pieces, away from the first grid
    point (the reset not taken), with the proof that on whole staging buffers — the ten inputs at their contents,
    the accumulators at their running contents — the body runs to its return, the inputs as they were. -/
noncomputable def kernelRunB (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : ¬cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) :
    { L : List (View.Piece (Elt F) S1x1 .f32) × List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare xo10 ∗ owns (c : Thread nD τ) a11 fullShare xo11
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
                ∗ (∃ f, a10.view.loc (c : Thread nD τ) ↦[a10.view.set]{fullShare} a10.view.writes (Elt F) f L.1)
                ∗ (∃ f, a11.view.loc (c : Thread nD τ) ↦[a11.view.set]{fullShare} a11.view.writes (Elt F) f L.2)) -∗ K ⟨⟩))
          ⊢ wp frame (wpE (defs₀ (F := F)) Variants.none c none) E (cc0__pairwise_loss_kernel i a0 h0 a1 h1 a2 h2 a3 h3 a4 h4 a5 h5 a6 h6 a7 h7 a8 h8 a9 h9 a10 h10 a11 h11) K } := by
  refine ⟨(?_, ?_), fun E K => ?run⟩
  case run =>
    simp only [cc0__pairwise_loss_kernel_eq_skeleton]; unfold cc0__pairwise_loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; iexact H10
    iexists _; iexact H11

end Cert.KernelIdeal.Hand

end
-- ==== Proof.KIRunA.lean ====
/-
  The body at the first grid point: it stores zero into both accumulators before anything else, so each accumulator's
  staging buffer may hold anything when the body is entered; the stores each is left with are found by running the body.
-/
import proofs.«117279_j27805618274450_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two accumulators' staging buffers, as pieces, at the first grid
    point (the reset taken), with the proof that on whole staging buffers — the ten inputs at their contents,
    the accumulators at any contents — the body runs to its return, the inputs as they were. -/
noncomputable def kernelRunA (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) :
    { L : List (View.Piece (Elt F) S1x1 .f32) × List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare xo10 ∗ owns (c : Thread nD τ) a11 fullShare xo11
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
                ∗ (∃ f, a10.view.loc (c : Thread nD τ) ↦[a10.view.set]{fullShare} a10.view.writes (Elt F) f L.1)
                ∗ (∃ f, a11.view.loc (c : Thread nD τ) ↦[a11.view.set]{fullShare} a11.view.writes (Elt F) f L.2)) -∗ K ⟨⟩))
          ⊢ wp frame (wpE (defs₀ (F := F)) Variants.none c none) E (cc0__pairwise_loss_kernel i a0 h0 a1 h1 a2 h2 a3 h3 a4 h4 a5 h5 a6 h6 a7 h7 a8 h8 a9 h9 a10 h10 a11 h11) K } := by
  refine ⟨(?_, ?_), fun E K => ?run⟩
  case run =>
    simp only [cc0__pairwise_loss_kernel_eq_skeleton]; unfold cc0__pairwise_loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; iexact H10
    iexists _; iexact H11

end Cert.KernelIdeal.Hand

end
-- ==== Proof.KIEntry.lean ====
/-
  The arrays as the kernel region finds them: the host operations before the region have run from the launch
  memory. A window's block at a grid point is read off its array there.
-/
import proofs.«117279_j27805618274450_2_alg».proof.Proof.Gen.KernelIdeal.Launch
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Core `c`'s buffers at launch, as the host operations' valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

end Cert.KernelIdeal.Hand

end
-- ==== Proof.KIAcc.lean ====
/-
  The two accumulators of the pairwise loss as a left fold over the grid points.

  At the first point each is zero plus that tile's sum; at every later point what the point before left plus this
  tile's sum — stated through the body's own arithmetic on the windows' blocks.
-/
import proofs.«117279_j27805618274450_2_alg».proof.Proof.KIEntry
import proofs.«117279_j27805618274450_2_alg».proof.Proof.Gen.KernelIdeal.Skeleton

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## One grid point's arithmetic -/

/-- The masked clamped errors of one tile of pairs, from the ten input blocks. -/
def tileN (x0 x1 x2 x3 : Vec F S4x3x256 .f32) (x4 x5 x6 x7 x8 x9 : Vec F S4x256 .f32) : FVec F S4x256x256 .f32 :=
  k0_pay14 (k0_pay8 (k0_pay5 x2) (k0_pay6 x3)) (k0_pay9 x6) (k0_pay10 x7) (k0_pay11 (k0_pay7 x0 x1) x4 x5) (k0_pay12 (k0_pay7 x0 x1) x4 x5) x8 x9

/-- The error accumulator after a point: what it held plus the tile's sum. -/
def stepN (x0 x1 x2 x3 : Vec F S4x3x256 .f32) (x4 x5 x6 x7 x8 x9 : Vec F S4x256 .f32) (acc : Vec F S1x1 .f32) : Vec F S1x1 .f32 :=
  k0_pay1 (tileN x0 x1 x2 x3 x4 x5 x6 x7 x8 x9) acc

/-- The mask accumulator after a point: what it held plus the tile's sum of the pair mask. -/
def stepD (x8 x9 : Vec F S4x256 .f32) (acc : Vec F S1x1 .f32) : Vec F S1x1 .f32 :=
  k0_pay2 (k0_pay13 x8 x9) acc

variable (m : (ℓ : Loc nD τ sig) → Buf (Elt F) ℓ) (ρ : Dev nD → PrngReg)

/-! ## The accumulators, point by point -/

/-- What the two accumulators' staging buffers hold after the body at position `n`. -/
def accs (c : Dev nD) : (n : ℕ) → n < cfg0.N → Vec F S1x1 .f32 × Vec F S1x1 .f32
  | 0, hn => (stepN (iblk m ρ c 0 ⟨0, hn⟩) (iblk m ρ c 1 ⟨0, hn⟩) (iblk m ρ c 2 ⟨0, hn⟩) (iblk m ρ c 3 ⟨0, hn⟩) (iblk m ρ c 4 ⟨0, hn⟩) (iblk m ρ c 5 ⟨0, hn⟩) (iblk m ρ c 6 ⟨0, hn⟩) (iblk m ρ c 7 ⟨0, hn⟩) (iblk m ρ c 8 ⟨0, hn⟩) (iblk m ρ c 9 ⟨0, hn⟩) (k0_pay3 (F := F)), stepD (iblk m ρ c 8 ⟨0, hn⟩) (iblk m ρ c 9 ⟨0, hn⟩) (k0_pay4 (F := F)))
  | n + 1, hn =>
    (stepN (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (iblk m ρ c 6 ⟨n + 1, hn⟩) (iblk m ρ c 7 ⟨n + 1, hn⟩) (iblk m ρ c 8 ⟨n + 1, hn⟩) (iblk m ρ c 9 ⟨n + 1, hn⟩) (accs c n (Nat.lt_of_succ_lt hn)).1,
     stepD (iblk m ρ c 8 ⟨n + 1, hn⟩) (iblk m ρ c 9 ⟨n + 1, hn⟩) (accs c n (Nat.lt_of_succ_lt hn)).2)

end Cert.KernelIdeal.Hand

end
-- ==== Proof.KIOut.lean ====
/-
  What the body's stores leave in the accumulators is the body's own arithmetic of what it loaded: the one
  whole-block store each accumulator ends with holds the accumulator's loaded contents plus the tile's sum, and
  every load through a whole block of a buffer reads the buffer's contents.
-/
import proofs.«117279_j27805618274450_2_alg».proof.Proof.KIRunA
import proofs.«117279_j27805618274450_2_alg».proof.Proof.KIAcc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- Away from the first point the error accumulator's buffer ends at one step of the fold from what it held. -/
theorem outB10 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : ¬cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a10.view.ty.Contents (Elt F)) :
    a10.view.read (Elt F) (a10.view.writes (Elt F) f (kernelRunB c i a0 h0 a1 h1 a2 h2 a3 h3 a4 h4 a5 h5 a6 h6 a7 h7 a8 h8 a9 h9 a10 h10 a11 h11 hc x0 x1 x2 x3 x4 x5 x6 x7 x8 x9 xo10 xo11).1.1)
      = stepN x0 x1 x2 x3 x4 x5 x6 x7 x8 x9 xo10 := by
  rw [View.read_writes_eq_canon _ _ _ (fun y => View.cover_of_tiledL _ S1x1.size (by sl_kernel_rfl) y)]
  unfold kernelRunB; dsimp only; sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2]
  rfl

/-- Away from the first point the mask accumulator's buffer ends at one step of the fold from what it held. -/
theorem outB11 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : ¬cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a11.view.ty.Contents (Elt F)) :
    a11.view.read (Elt F) (a11.view.writes (Elt F) f (kernelRunB c i a0 h0 a1 h1 a2 h2 a3 h3 a4 h4 a5 h5 a6 h6 a7 h7 a8 h8 a9 h9 a10 h10 a11 h11 hc x0 x1 x2 x3 x4 x5 x6 x7 x8 x9 xo10 xo11).1.2)
      = stepD x8 x9 xo11 := by
  rw [View.read_writes_eq_canon _ _ _ (fun y => View.cover_of_tiledL _ S1x1.size (by sl_kernel_rfl) y)]
  unfold kernelRunB; dsimp only; sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2, View.readCov_unit_zero (S := S1x1) _ hz2]
  rfl

/-- At the first point the error accumulator's buffer ends at one step of the fold from zero: the zero stored first is what the body loads back. -/
theorem outA10 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a10.view.ty.Contents (Elt F)) :
    a10.view.read (Elt F) (a10.view.writes (Elt F) f (kernelRunA c i a0 h0 a1 h1 a2 h2 a3 h3 a4 h4 a5 h5 a6 h6 a7 h7 a8 h8 a9 h9 a10 h10 a11 h11 hc x0 x1 x2 x3 x4 x5 x6 x7 x8 x9 xo10 xo11).1.1)
      = stepN x0 x1 x2 x3 x4 x5 x6 x7 x8 x9 (k0_pay3 (F := F)) := by
  rw [View.read_writes_eq_canon _ _ _ (fun y => View.cover_of_tiledL _ S1x1.size (by sl_kernel_rfl) y)]
  unfold kernelRunA; dsimp only; sl_unfold_words
  rw [View.canon_cons_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2, View.readCov_unit_zero (S := S1x1) _ hz2]
  rfl

/-- At the first point the mask accumulator's buffer ends at one step of the fold from zero. -/
theorem outA11 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a11.view.ty.Contents (Elt F)) :
    a11.view.read (Elt F) (a11.view.writes (Elt F) f (kernelRunA c i a0 h0 a1 h1 a2 h2 a3 h3 a4 h4 a5 h5 a6 h6 a7 h7 a8 h8 a9 h9 a10 h10 a11 h11 hc x0 x1 x2 x3 x4 x5 x6 x7 x8 x9 xo10 xo11).1.2)
      = stepD x8 x9 (k0_pay4 (F := F)) := by
  rw [View.read_writes_eq_canon _ _ _ (fun y => View.cover_of_tiledL _ S1x1.size (by sl_kernel_rfl) y)]
  unfold kernelRunA; dsimp only; sl_unfold_words
  rw [View.canon_cons_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2, View.readCov_unit_zero (S := S1x1) _ hz2]
  rfl

end Cert.KernelIdeal.Hand

end
-- ==== Proof.KIDat.lean ====
/-
  The proof data of the pairwise-loss pipeline: what every staging buffer holds after the body at every grid point.

  An input window's buffer holds its block of the array, as the region finds the array. The two accumulators are
  a left fold over the 144 grid points: at the first point zero plus that tile's sum, at every later point what
  the point before left plus this tile's sum — stated through the body's own arithmetic (`stepN`, `stepD`).
-/
import proofs.«117279_j27805618274450_2_alg».proof.Proof.KIOut
import proofs.«117279_j27805618274450_2_alg».proof.Proof.KIAcc
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input array is read by two windows; each window holds one half of it. -/
def halves : Fin cfg0.W → PosShare TreeShare
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare.left | ⟨7, _⟩ => fullShare.right
  | ⟨8, _⟩ => fullShare.left | ⟨9, _⟩ => fullShare.right | ⟨10, _⟩ => fullShare | ⟨11, _⟩ => fullShare
  | ⟨_ + 12, h⟩ => absurd h (Nat.not_lt.2 (Nat.le_add_left _ _))

/-- The proof data on core `c`. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => iblk m ρ c 8 t
    | ⟨9, _⟩ => iblk m ρ c 9 t
    | ⟨10, _⟩ => (accs m ρ c t.val t.isLt).1
    | ⟨11, _⟩ => (accs m ρ c t.val t.isLt).2
  Φ _ := Pipeline.scopedRest (Ix := Unit) (Name := ℕ) (U := UR sig nD τ) (Lvl := ℕ) (Val := Elt F) spec0 c
  q := halves
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = iblk m ρ c 6 t := by dsimp only [dats]
theorem after7 (c : Dev nD) (t : Fin cfg0.N) : (dats m ρ 0 c).after 7 t = iblk m ρ c 7 t := by dsimp only [dats]
theorem after8 (c : Dev nD) (t : Fin cfg0.N) : (dats m ρ 0 c).after 8 t = iblk m ρ c 8 t := by dsimp only [dats]
theorem after9 (c : Dev nD) (t : Fin cfg0.N) : (dats m ρ 0 c).after 9 t = iblk m ρ c 9 t := by dsimp only [dats]
theorem after10 (c : Dev nD) (t : Fin cfg0.N) : (dats m ρ 0 c).after 10 t = (accs m ρ c t.val t.isLt).1 := by dsimp only [dats]
theorem after11 (c : Dev nD) (t : Fin cfg0.N) : (dats m ρ 0 c).after 11 t = (accs m ρ c t.val t.isLt).2 := by dsimp only [dats]

/-- An input window's current staging buffer holds its block at every point, fetched there or not: unfetched, the
    block index has not moved since the fetch. -/
theorem before0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m ρ 0 c).before 5 t d = iblk m ρ c 5 t :=
  ((dats m ρ 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m ρ 0 c).before 6 t d = iblk m ρ c 6 t :=
  ((dats m ρ 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m ρ 0 c).before 7 t d = iblk m ρ c 7 t :=
  ((dats m ρ 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m ρ 0 c).before 8 t d = iblk m ρ c 8 t :=
  ((dats m ρ 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m ρ 0 c).before 9 t d = iblk m ρ c 9 t :=
  ((dats m ρ 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

abbrev ms0 (t : Fin cfg0.N) : Memref sig .tc .vmem S4x3x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x3x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x3x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1 .f32 := win0_11.stage (cfg0.slots t 11)
abbrev hs11 (t : Fin cfg0.N) : (ms11 t).IsWhole := hstage0_11 ((cfg0.slots t 11).cast nbuf0_11)

/-! ## The accumulators' buffers when the body is entered -/

/-- No accumulator is written back before the last point. -/
theorem noflush10 (t : Fin cfg0.N) (ht : t.val ≠ 0) :
    (cfg0.win 10).flush ⟨t.val - 1, Nat.lt_of_le_of_lt (Nat.sub_le _ _) t.isLt⟩ = false := by
  have hN : t.val < 144 := lt_of_lt_of_eq t.isLt (show cfg0.N = 144 from N_0)
  exact Bool.eq_false_iff.mpr fun h => by have := (flush0_10 _).mp h; dsimp only at this; omega
theorem noflush11 (t : Fin cfg0.N) (ht : t.val ≠ 0) :
    (cfg0.win 11).flush ⟨t.val - 1, Nat.lt_of_le_of_lt (Nat.sub_le _ _) t.isLt⟩ = false := by
  have hN : t.val < 144 := lt_of_lt_of_eq t.isLt (show cfg0.N = 144 from N_0)
  exact Bool.eq_false_iff.mpr fun h => by have := (flush0_11 _).mp h; dsimp only at this; omega

/-- After the first point each accumulator's buffer holds what the body left at the point before. -/
theorem before10 (c : Dev nD) (t : Fin cfg0.N) (ht : t.val ≠ 0) (d) :
    (dats m ρ 0 c).before 10 t d = (accs m ρ c (t.val - 1) (Nat.lt_of_le_of_lt (Nat.sub_le _ _) t.isLt)).1 := by
  rw [Dat.before_out_kept _ 10 rfl t ht (noflush10 t ht) (fun _ => rfl) (fun _ _ => rfl)]
  dsimp only [dats]
theorem before11 (c : Dev nD) (t : Fin cfg0.N) (ht : t.val ≠ 0) (d) :
    (dats m ρ 0 c).before 11 t d = (accs m ρ c (t.val - 1) (Nat.lt_of_le_of_lt (Nat.sub_le _ _) t.isLt)).2 := by
  rw [Dat.before_out_kept _ 11 rfl t ht (noflush11 t ht) (fun _ => rfl) (fun _ _ => rfl)]
  dsimp only [dats]

/-- The fold at the first point, -/
theorem accs_first (c : Dev nD) (t : Fin cfg0.N) (h0 : t.val = 0) :
    accs m ρ c t.val t.isLt = (stepN (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (k0_pay3 (F := F)), stepD (iblk m ρ c 8 t) (iblk m ρ c 9 t) (k0_pay4 (F := F))) := by
  obtain ⟨n, hn⟩ := t
  cases n with
  | zero => rfl
  | succ n => exact absurd h0 (Nat.succ_ne_zero n)

/-- and at a later one. -/
theorem accs_later (c : Dev nD) (t : Fin cfg0.N) (h0 : t.val ≠ 0) :
    accs m ρ c t.val t.isLt
      = (stepN (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (accs m ρ c (t.val - 1) (Nat.lt_of_le_of_lt (Nat.sub_le _ _) t.isLt)).1,
         stepD (iblk m ρ c 8 t) (iblk m ρ c 9 t) (accs m ρ c (t.val - 1) (Nat.lt_of_le_of_lt (Nat.sub_le _ _) t.isLt)).2) := by
  obtain ⟨n, hn⟩ := t
  cases n with
  | zero => exact absurd rfl h0
  | succ n => rfl

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d))
    ∗ (∃ d, owns (c : Thread nD τ) (ms7 t) fullShare ((dats m ρ 0 c).before 7 t d))
    ∗ (∃ d, owns (c : Thread nD τ) (ms8 t) fullShare ((dats m ρ 0 c).before 8 t d))
    ∗ (∃ d, owns (c : Thread nD τ) (ms9 t) fullShare ((dats m ρ 0 c).before 9 t d))
    ∗ (∃ d, owns (c : Thread nD τ) (ms10 t) fullShare ((dats m ρ 0 c).before 10 t d))
    ∗ (∃ d, owns (c : Thread nD τ) (ms11 t) fullShare ((dats m ρ 0 c).before 11 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t)
    ∗ owns (c : Thread nD τ) (ms7 t) fullShare ((dats m ρ 0 c).after 7 t)
    ∗ owns (c : Thread nD τ) (ms8 t) fullShare ((dats m ρ 0 c).after 8 t)
    ∗ owns (c : Thread nD τ) (ms9 t) fullShare ((dats m ρ 0 c).after 9 t)
    ∗ owns (c : Thread nD τ) (ms10 t) fullShare ((dats m ρ 0 c).after 10 t)
    ∗ owns (c : Thread nD τ) (ms11 t) fullShare ((dats m ρ 0 c).after 11 t))

set_option maxHeartbeats 1600000 in
/-- The body at any point: every input's buffer holds its block; the coordinates say which case the point is in;
    after the first point each accumulator's buffer holds what the point before left; so that case's run applies,
    and what it leaves is one step of the fold. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5, before6, before7, before8, before9]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6, after7, after8, after9, after10, after11]
  by_cases h0 : t.val = 0
  · rw [accs_first m ρ c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRunA c (grid0.coords t) _ _ _ _ _ _ _ _ _ _ _ _ _ _ _ _ _ _ _ _ _ _ _ _ ((hcond0 t).mpr h0) (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact outA10 c _ _ _ _ _ _ _ _ _ _ _ _ _ _ _ _ _ _ _ _ _ _ _ _ _ _ _ _ _ _ _ _ _ _ _ _ _ _ _
    · unfold owns; iexists _; isplitr
      swap; · iexact H11
      ipureintro; exact outA11 c _ _ _ _ _ _ _ _ _ _ _ _ _ _ _ _ _ _ _ _ _ _ _ _ _ _ _ _ _ _ _ _ _ _ _ _ _ _ _
  · rw [accs_later m ρ c t h0]
    simp only [before10 m ρ c t h0, before11 m ρ c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRunB c (grid0.coords t) _ _ _ _ _ _ _ _ _ _ _ _ _ _ _ _ _ _ _ _ _ _ _ _ (fun h => h0 ((hcond0 t).mp h)) (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact outB10 c _ _ _ _ _ _ _ _ _ _ _ _ _ _ _ _ _ _ _ _ _ _ _ _ _ _ _ _ _ _ _ _ _ _ _ _ _ _ _
    · unfold owns; iexists _; isplitr
      swap; · iexact H11
      ipureintro; exact outB11 c _ _ _ _ _ _ _ _ _ _ _ _ _ _ _ _ _ _ _ _ _ _ _ _ _ _ _ _ _ _ _ _ _ _ _ _ _ _ _

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KITail.lean ====
/-
  What the lines after the region start from: every buffer as the region found it, but for the two accumulators'
  arrays, which hold what the region wrote back.
-/
import proofs.«117279_j27805618274450_2_alg».proof.Proof.KIDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A TensorCore reference as a device buffer. -/
abbrev dr (b : Ref sig .tc) : DevRef τ sig := Proc.devRef .tc b

/-- The buffers' contents when the region is left. -/
def W1 (c : Dev nD) : Valuation τ sig (Elt F) :=
  Function.update (Function.update (StableHlo.after hostOps0 (V₀ m ρ c)) (dr main_v11_0) ((dats m ρ 0 c).arrAt 10 cfg0.N))
    (dr main_v11_1) ((dats m ρ 0 c).arrAt 11 cfg0.N)

end Cert.KernelIdeal.Hand

end
-- ==== Proof.KIRun.lean ====
/-
  The launch of the pairwise-loss program: the host operations before the region, the region, the host operations
  after it, as three segments of @main.

  Five arrays are each read through two windows; each window is given one half of its array, the halves dealt at
  the region's entry. The two accumulators' arrays are written back once, at the last grid point, and the lines
  after the region read them: a reshape of each to a scalar, the mask sum plus epsilon, the quotient.
-/
import proofs.«117279_j27805618274450_2_alg».proof.Proof.KITail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, and their shares -/

/-- The seven distinct buffers behind the twelve windows' arrays. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v2) ↦{fullShare} Vv main_v2) ∗ (((c : Thread nD τ).loc main_v3) ↦{fullShare} Vv main_v3)
        ∗ (((c : Thread nD τ).loc main_v5) ↦{fullShare} Vv main_v5) ∗ (((c : Thread nD τ).loc main_v7) ↦{fullShare} Vv main_v7)
        ∗ (((c : Thread nD τ).loc main_v10) ↦{fullShare} Vv main_v10)
        ∗ (((c : Thread nD τ).loc main_v11_0) ↦{fullShare} Vv main_v11_0) ∗ (((c : Thread nD τ).loc main_v11_1) ↦{fullShare} Vv main_v11_1)) := by
  unfold Pipeline.arrBufs
  rw [bigSep_eq_bigSepL_of_eq [main_v2, main_v3, main_v5, main_v7, main_v10, main_v11_0, main_v11_1] (by decide) (by decide)]
  rfl

/-- The pipeline's arrays are whole buffers: each window's array at its share of its buffer. -/
theorem arrays_eq' (c : Dev nD) (Fw : (w : Fin cfg0.W) → Buf (Elt F) ((cfg0.win w).arr.view.loc (c : Thread nD τ))) :
    ((dats m ρ 0 c).arrays Fw : sProp 𝕄)
      = bigSep Finset.univ fun w : Fin 12 => ((((c : Thread nD τ).loc (Pipeline.arrRef spec0 w)) ↦{(dats m ρ 0 c).share w} Fw w : sProp 𝕄)) := by
  unfold Dat.arrays
  exact bigSep_congr fun w _ => by rw [(arr_whole0 w).set_eq_univ]

/-- The shares: a half for each window on a shared input array, all of it for an accumulator's. -/
theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare.left := rfl
theorem share3 (c : Dev nD) : (dats m ρ 0 c).share 3 = fullShare.right := rfl
theorem share4 (c : Dev nD) : (dats m ρ 0 c).share 4 = fullShare.left := rfl
theorem share5 (c : Dev nD) : (dats m ρ 0 c).share 5 = fullShare.right := rfl
theorem share6 (c : Dev nD) : (dats m ρ 0 c).share 6 = fullShare.left := rfl
theorem share7 (c : Dev nD) : (dats m ρ 0 c).share 7 = fullShare.right := rfl
theorem share8 (c : Dev nD) : (dats m ρ 0 c).share 8 = fullShare.left := rfl
theorem share9 (c : Dev nD) : (dats m ρ 0 c).share 9 = fullShare.right := rfl
theorem share10 (c : Dev nD) : (dats m ρ 0 c).share 10 = fullShare := rfl
theorem share11 (c : Dev nD) : (dats m ρ 0 c).share 11 = fullShare := rfl

/-! ## The segments of @main -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)

/-- The host operations before the region write their thirteen results and nothing else. -/
theorem not_written (b : Ref sig .tc) (hb : b ≠ main_v0 ∧ b ≠ main_v1 ∧ b ≠ main_v2 ∧ b ≠ main_v3 ∧ b ≠ main_v4 ∧ b ≠ main_cst ∧ b ≠ main_v5 ∧ b ≠ main_v6 ∧ b ≠ main_cst_0 ∧ b ≠ main_v7 ∧ b ≠ main_v8 ∧ b ≠ main_v9 ∧ b ≠ main_v10) :
    ∀ op ∈ (hostOps0 (F := F)), Proc.devRef .tc b ∉ op.writes := by
  obtain ⟨h0, h1, h2, h3, h4, h5, h6, h7, h8, h9, h10, h11, h12⟩ := hb
  intro op hop
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The three arguments reach the region, and the end, as launched. -/
theorem V_arg0 (c : Dev nD) : V m ρ c main_arg0 = m ((c : Thread nD τ).loc main_arg0) :=
  StableHlo.after_of_forall_not_mem (b := Proc.devRef .tc main_arg0) hostOps0 (V₀ m ρ c) (not_written main_arg0 (by decide))
theorem V_arg1 (c : Dev nD) : V m ρ c main_arg1 = m ((c : Thread nD τ).loc main_arg1) :=
  StableHlo.after_of_forall_not_mem (b := Proc.devRef .tc main_arg1) hostOps0 (V₀ m ρ c) (not_written main_arg1 (by decide))
theorem V_arg2 (c : Dev nD) : V m ρ c main_arg2 = m ((c : Thread nD τ).loc main_arg2) :=
  StableHlo.after_of_forall_not_mem (b := Proc.devRef .tc main_arg2) hostOps0 (V₀ m ρ c) (not_written main_arg2 (by decide))

/-- THE FIRST HOST SEGMENT: the thirteen operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The buffers the lines after the region touch. -/
abbrev tailRefsL : List (Ref sig .tc) := [main_v11_0, main_v11_1, main_v12, main_v13, main_cst_1, main_v14, main_v15]
abbrev S1 : Finset (DevRef τ sig) := (tailRefsL.map (Proc.devRef (τ := τ) .tc)).toFinset

/-- Those buffers held at a valuation, one by one. -/
theorem held_S1 (c : Dev nD) (W : Valuation τ sig (Elt F)) :
    (StableHlo.held (c : Thread nD τ) S1 W : sProp 𝕄)
      = iprop((((c : Thread nD τ).1, dr main_v11_0) ↦{fullShare} W (dr main_v11_0))
        ∗ (((c : Thread nD τ).1, dr main_v11_1) ↦{fullShare} W (dr main_v11_1))
        ∗ (((c : Thread nD τ).1, dr main_v12) ↦{fullShare} W (dr main_v12))
        ∗ (((c : Thread nD τ).1, dr main_v13) ↦{fullShare} W (dr main_v13))
        ∗ (((c : Thread nD τ).1, dr main_cst_1) ↦{fullShare} W (dr main_cst_1))
        ∗ (((c : Thread nD τ).1, dr main_v14) ↦{fullShare} W (dr main_v14))
        ∗ (((c : Thread nD τ).1, dr main_v15) ↦{fullShare} W (dr main_v15))) := by
  unfold StableHlo.held
  rw [bigSep_eq_bigSepL_of_eq (tailRefsL.map (Proc.devRef (τ := τ) .tc)) rfl
    ((List.nodup_map_iff (Proc.devRef_injective _)).mpr (by decide))]
  rfl

/-- The three arguments, kept beside the lines after the region. -/
abbrev Keep (c : Dev nD) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2))

theorem mem_S1 (b : Ref sig .tc) (hb : b ∈ tailRefsL) : Proc.devRef (τ := τ) .tc b ∈ (S1 : Finset (DevRef τ sig)) :=
  List.mem_toFinset.mpr (List.mem_map_of_mem hb)

/-- THE SECOND HOST SEGMENT: the five operations after the region, over the buffers they touch. -/
def seg1 : Pipeline.HostSeg (Name := ℕ) (U := UR sig nD τ) (pcfgs (F := F)) defs₀ 𝒱₀ L lv :=
  Pipeline.HostSeg.ofOps _ _ _ _ _ S1 hostOps1
    (by
      intro op hop
      simp only [List.mem_cons, List.mem_nil_iff, or_false] at hop
      rcases hop with rfl | rfl | rfl | rfl | rfl
      · rw [StableHlo.reshape_bufs]; intro b hb; simp only [Finset.mem_insert, Finset.mem_singleton] at hb
        rcases hb with rfl | rfl <;> exact mem_S1 _ (by decide)
      · rw [StableHlo.reshape_bufs]; intro b hb; simp only [Finset.mem_insert, Finset.mem_singleton] at hb
        rcases hb with rfl | rfl <;> exact mem_S1 _ (by decide)
      · rw [StableHlo.nullary_bufs]; intro b hb; simp only [Finset.mem_singleton] at hb
        rcases hb with rfl; exact mem_S1 _ (by decide)
      · rw [StableHlo.binary_bufs]; intro b hb; simp only [Finset.mem_insert, Finset.mem_singleton] at hb
        rcases hb with rfl | rfl | rfl <;> exact mem_S1 _ (by decide)
      · rw [StableHlo.binary_bufs]; intro b hb; simp only [Finset.mem_insert, Finset.mem_singleton] at hb
        rcases hb with rfl | rfl | rfl <;> exact mem_S1 _ (by decide))
    (by intro _ h; (repeat (cases h with | head => rfl | tail _ h => ?_)); exact nomatch h)
    (W1 m ρ) (fun c => iprop(Keep m ρ c ∗ R c))

/-- What the program ends with: the lines' buffers after the lines, and the three arguments. -/
abbrev Tₙ (c : Dev nD) : sProp 𝕄 :=
  iprop(StableHlo.held (c : Thread nD τ) S1 (StableHlo.after hostOps1 (W1 m ρ c)) ∗ Keep m ρ c)

/-- Reading the valuation the region leaves: a buffer that is no accumulator's array is as the region found it. -/
theorem W1_other (c : Dev nD) (b : Ref sig .tc) (h0 : b ≠ main_v11_0) (h1 : b ≠ main_v11_1) :
    W1 m ρ c (dr b) = StableHlo.after hostOps0 (V₀ m ρ c) (dr b) := by
  unfold W1
  rw [Function.update_of_ne (StableHlo.devRef_ne_of_ne h1), Function.update_of_ne (StableHlo.devRef_ne_of_ne h0)]
theorem W1_10 (c : Dev nD) : W1 m ρ c (dr main_v11_0) = (dats m ρ 0 c).arrAt 10 cfg0.N := by
  unfold W1
  rw [Function.update_of_ne (StableHlo.devRef_ne_of_ne (by decide)), Function.update_self]
theorem W1_11 (c : Dev nD) : W1 m ρ c (dr main_v11_1) = (dats m ρ 0 c).arrAt 11 cfg0.N := by
  unfold W1
  rw [Function.update_self]

set_option backward.isDefEq.respectTransparency.types false in
set_option maxHeartbeats 1600000 in
/-- THE REGION: entered from what the first host segment left — each shared input array dealt in halves to its two
    windows, the accumulators' arrays whole, every other buffer bypassing —, left with the accumulators' arrays at
    what was written back and the buffers the later lines need. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) S1 (W1 m ρ c) ∗ (Keep m ρ c ∗ R c))
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_eq, arrays_eq', bigSep_W0]
    simp only [share0, share1, share2, share3, share4, share5, share6, share7, share8, share9, share10, share11]
    iintro ⟨⟨⟨⟨H2, H3, H5, H7, H10, Ha, Hb⟩, Hrest⟩, HO⟩, -, -⟩
    ihave P2 := (pointsTo_share (PosShare.mem_left_op_right fullShare)).1 $$ H2
    icases P2 with ⟨H2l, H2r⟩
    ihave P3 := (pointsTo_share (PosShare.mem_left_op_right fullShare)).1 $$ H3
    icases P3 with ⟨H3l, H3r⟩
    ihave P5 := (pointsTo_share (PosShare.mem_left_op_right fullShare)).1 $$ H5
    icases P5 with ⟨H5l, H5r⟩
    ihave P7 := (pointsTo_share (PosShare.mem_left_op_right fullShare)).1 $$ H7
    icases P7 with ⟨H7l, H7r⟩
    ihave P10 := (pointsTo_share (PosShare.mem_left_op_right fullShare)).1 $$ H10
    icases P10 with ⟨H10l, H10r⟩
    imodintro
    isplitl [H2l H2r H3l H3r H5l H5r H7l H7r H10l H10r Ha Hb]
    ·
      isplitl [H2l]; · iexact H2l
      isplitl [H2r]; · iexact H2r
      isplitl [H3l]; · iexact H3l
      isplitl [H3r]; · iexact H3r
      isplitl [H5l]; · iexact H5l
      isplitl [H5r]; · iexact H5r
      isplitl [H7l]; · iexact H7l
      isplitl [H7r]; · iexact H7r
      isplitl [H10l]; · iexact H10l
      isplitl [H10r]; · iexact H10r
      isplitl [Ha]; · iexact Ha
      iexact Hb
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_eq', bigSep_W0, held_S1, unscopedRest0_eq]
    simp only [share0, share1, share2, share3, share4, share5, share6, share7, share8, share9, share10, share11, W1_10, W1_11]
    rw [W1_other m ρ c main_v12 (by decide) (by decide), W1_other m ρ c main_v13 (by decide) (by decide), W1_other m ρ c main_cst_1 (by decide) (by decide),
      W1_other m ρ c main_v14 (by decide) (by decide), W1_other m ρ c main_v15 (by decide) (by decide)]
    iintro ⟨⟨-, -, -, -, -, -, -, -, -, -, Ha, Hb⟩, HO, -, ⟨H_arg0, H_arg1, H_arg2, H_v0, H_v1, H_v4, H_cst, H_v6, H_cst_0, H_v8, H_v9, H_v12, H_v13, H_cst_1, H_v14, H_v15⟩⟩
    imodintro
    isplitl [Ha Hb H_v12 H_v13 H_cst_1 H_v14 H_v15]
    · isplitl [Ha]; · iexact Ha
      isplitl [Hb]; · iexact Hb
      isplitl [H_v12]; · iexact H_v12
      isplitl [H_v13]; · iexact H_v13
      isplitl [H_cst_1]; · iexact H_cst_1
      isplitl [H_v14]; · iexact H_v14
      iexact H_v15
    isplitl [H_arg0 H_arg1 H_arg2]
    · isplitl [H_arg0]; · iexact H_arg0
      isplitl [H_arg1]; · iexact H_arg1
      iexact H_arg2
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The physical post: the result's buffer at what the lines after the region compute from the accumulators' final
    arrays, the three arguments as launched. -/
def QC : PUnit × MemSt nD τ sig (Elt F) → Prop := fun r =>
  ∀ c : Dev nD, r.2.mem ((c : Thread nD τ).loc main_v15) = StableHlo.after hostOps1 (W1 m ρ c) (dr main_v15)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
set_option maxHeartbeats 1600000 in
/-- At the compiled mesh, for any float values, from any memory with zero counters: every weakly fair execution of
    @main on the TensorCores terminates, and every final state has the result at the lines' value and the three
    arguments unchanged. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun c => by
      show (iprop(StableHlo.held (c : Thread nD τ) S1 (StableHlo.after hostOps1 (W1 m ρ c)) ∗ (Keep m ρ c ∗ R c)) : sProp 𝕄)
        ⊢ iprop(Tₙ m ρ c ∗ ∃ W, owes (c : Thread nD τ) (0 : CellTallies nD τ sig Unit) W)
      iintro ⟨Hh, HK, HR⟩
      isplitl [Hh HK]
      · isplitl [Hh] <;> iassumption
      iexact HR⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v15) = StableHlo.after hostOps1 (W1 m ρ c) (dr main_v15)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Tₙ, Keep]; rw [held_S1, V_arg0, V_arg1, V_arg2]
      iintro ⟨⟨⟨-, -, -, -, -, -, H15⟩, H0, H1, H2⟩, HSI⟩
      icombine HSI H15 gives %h15
      icombine HSI H0 gives %h0
      icombine HSI H1 gives %h1
      icombine HSI H2 gives %h2
      imodintro
      isplitr; · ipureintro; exact ⟨Buf.eq_of_forall_mem_univ h15, Buf.eq_of_forall_mem_univ h0, Buf.eq_of_forall_mem_univ h1, Buf.eq_of_forall_mem_univ h2⟩
      iexact HSI)
    (hQ := fun _ h => h)

end Cert.KernelIdeal.Hand

end
-- ==== Proof.KBKit.lean ====
/-
  The kernel body of the pairwise loss, run once per control case on whole staging buffers.

  The body branches once, on "this is grid point (0, 0)": there it first stores zero into both accumulators. In
  either case it then loads the ten input blocks, loads each accumulator, and stores the accumulator plus this
  tile's sum back. What follows states the branch condition over the grid coordinates and decides where on the
  grid it holds.
-/
import proofs.«117279_j27805618274450_2_alg».proof.Proof.Gen.Kernel.Launch
import proofs.«117279_j27805618274450_2_alg».proof.Proof.Gen.Kernel.Skeleton
import proofs.«117279_j27805618274450_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-- One staging buffer of each accumulator window, through which its contents are stated. -/
abbrev VO10 : View sig .tc .vmem S1x1 .f32 := (Memref.whole cc0_stg10_0 : Memref sig .tc .vmem S1x1 .f32).view
abbrev VO11 : View sig .tc .vmem S1x1 .f32 := (Memref.whole cc0_stg11_0 : Memref sig .tc .vmem S1x1 .f32).view

end Cert.Kernel.Hand

end
-- ==== Proof.KBRunB.lean ====
/-
  The body at a grid point other than the first: both accumulators are read before they are stored, so each
  staging buffer is taken at its running contents; the stores each leaves are found by running the body.
-/
import proofs.«117279_j27805618274450_2_alg».proof.Proof.KBKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two accumulators' staging buffers, as pieces, away from the first grid
    point (the reset not taken), with the proof that on whole staging buffers — the ten inputs at their contents,
    the accumulators at their running contents — the body runs to its return, the inputs as they were. -/
noncomputable def kernelRunB (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : ¬cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) :
    { L : List (View.Piece (Elt F) S1x1 .f32) × List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare xo10 ∗ owns (c : Thread nD τ) a11 fullShare xo11
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
                ∗ (∃ f, a10.view.loc (c : Thread nD τ) ↦[a10.view.set]{fullShare} a10.view.writes (Elt F) f L.1)
                ∗ (∃ f, a11.view.loc (c : Thread nD τ) ↦[a11.view.set]{fullShare} a11.view.writes (Elt F) f L.2)) -∗ K ⟨⟩))
          ⊢ wp frame (wpE (defs₀ (F := F)) Variants.none c none) E (cc0__pairwise_loss_kernel i a0 h0 a1 h1 a2 h2 a3 h3 a4 h4 a5 h5 a6 h6 a7 h7 a8 h8 a9 h9 a10 h10 a11 h11) K } := by
  refine ⟨(?_, ?_), fun E K => ?run⟩
  case run =>
    simp only [cc0__pairwise_loss_kernel_eq_skeleton]; unfold cc0__pairwise_loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; iexact H10
    iexists _; iexact H11

end Cert.Kernel.Hand

end
-- ==== Proof.KBRunA.lean ====
/-
  The body at the first grid point: it stores zero into both accumulators before anything else, so each accumulator's
  staging buffer may hold anything when the body is entered; the stores each is left with are found by running the body.
-/
import proofs.«117279_j27805618274450_2_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two accumulators' staging buffers, as pieces, at the first grid
    point (the reset taken), with the proof that on whole staging buffers — the ten inputs at their contents,
    the accumulators at any contents — the body runs to its return, the inputs as they were. -/
noncomputable def kernelRunA (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) :
    { L : List (View.Piece (Elt F) S1x1 .f32) × List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare xo10 ∗ owns (c : Thread nD τ) a11 fullShare xo11
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9
                ∗ (∃ f, a10.view.loc (c : Thread nD τ) ↦[a10.view.set]{fullShare} a10.view.writes (Elt F) f L.1)
                ∗ (∃ f, a11.view.loc (c : Thread nD τ) ↦[a11.view.set]{fullShare} a11.view.writes (Elt F) f L.2)) -∗ K ⟨⟩))
          ⊢ wp frame (wpE (defs₀ (F := F)) Variants.none c none) E (cc0__pairwise_loss_kernel i a0 h0 a1 h1 a2 h2 a3 h3 a4 h4 a5 h5 a6 h6 a7 h7 a8 h8 a9 h9 a10 h10 a11 h11) K } := by
  refine ⟨(?_, ?_), fun E K => ?run⟩
  case run =>
    simp only [cc0__pairwise_loss_kernel_eq_skeleton]; unfold cc0__pairwise_loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; iexact H10
    iexists _; iexact H11

end Cert.Kernel.Hand

end
-- ==== Proof.KBEntry.lean ====
/-
  The arrays as the kernel region finds them: the host operations before the region have run from the launch
  memory. A window's block at a grid point is read off its array there.
-/
import proofs.«117279_j27805618274450_2_alg».proof.Proof.Gen.Kernel.Launch
import Idealize.ShloMosaic.Lib.Pipeline.Kit

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- Core `c`'s buffers at launch, as the host operations' valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

end Cert.Kernel.Hand

end
-- ==== Proof.KBAcc.lean ====
/-
  The two accumulators of the pairwise loss as a left fold over the grid points.

  At the first point each is zero plus that tile's sum; at every later point what the point before left plus this
  tile's sum — stated through the body's own arithmetic on the windows' blocks.
-/
import proofs.«117279_j27805618274450_2_alg».proof.Proof.KBEntry
import proofs.«117279_j27805618274450_2_alg».proof.Proof.Gen.Kernel.Skeleton

noncomputable section

namespace Cert.Kernel.Hand

open Cert.Kernel Cert.Kernel.Gen
open Idealize.ShloMosaic Idealize.ShloMosaic.TcCoe
open Idealize.SL Idealize.SL.Sem

variable {F : FTy → Type} [FloatOps F]

/-! ## One grid point's arithmetic -/

/-- The masked clamped errors of one tile of pairs, from the ten input blocks. -/
def tileN (x0 x1 x2 x3 : Vec F S4x3x256 .f32) (x4 x5 x6 x7 x8 x9 : Vec F S4x256 .f32) : FVec F S4x256x256 .f32 :=
  k0_pay14 (k0_pay8 (k0_pay5 x2) (k0_pay6 x3)) (k0_pay9 x6) (k0_pay10 x7) (k0_pay11 (k0_pay7 x0 x1) x4 x5) (k0_pay12 (k0_pay7 x0 x1) x4 x5) x8 x9

/-- The error accumulator after a point: what it held plus the tile's sum. -/
def stepN (x0 x1 x2 x3 : Vec F S4x3x256 .f32) (x4 x5 x6 x7 x8 x9 : Vec F S4x256 .f32) (acc : Vec F S1x1 .f32) : Vec F S1x1 .f32 :=
  k0_pay1 (tileN x0 x1 x2 x3 x4 x5 x6 x7 x8 x9) acc

/-- The mask accumulator after a point: what it held plus the tile's sum of the pair mask. -/
def stepD (x8 x9 : Vec F S4x256 .f32) (acc : Vec F S1x1 .f32) : Vec F S1x1 .f32 :=
  k0_pay2 (k0_pay13 x8 x9) acc

variable (m : (ℓ : Loc nD τ sig) → Buf (Elt F) ℓ) (ρ : Dev nD → PrngReg)

/-! ## The accumulators, point by point -/

/-- What the two accumulators' staging buffers hold after the body at position `n`. -/
def accs (c : Dev nD) : (n : ℕ) → n < cfg0.N → Vec F S1x1 .f32 × Vec F S1x1 .f32
  | 0, hn => (stepN (iblk m ρ c 0 ⟨0, hn⟩) (iblk m ρ c 1 ⟨0, hn⟩) (iblk m ρ c 2 ⟨0, hn⟩) (iblk m ρ c 3 ⟨0, hn⟩) (iblk m ρ c 4 ⟨0, hn⟩) (iblk m ρ c 5 ⟨0, hn⟩) (iblk m ρ c 6 ⟨0, hn⟩) (iblk m ρ c 7 ⟨0, hn⟩) (iblk m ρ c 8 ⟨0, hn⟩) (iblk m ρ c 9 ⟨0, hn⟩) (k0_pay3 (F := F)), stepD (iblk m ρ c 8 ⟨0, hn⟩) (iblk m ρ c 9 ⟨0, hn⟩) (k0_pay4 (F := F)))
  | n + 1, hn =>
    (stepN (iblk m ρ c 0 ⟨n + 1, hn⟩) (iblk m ρ c 1 ⟨n + 1, hn⟩) (iblk m ρ c 2 ⟨n + 1, hn⟩) (iblk m ρ c 3 ⟨n + 1, hn⟩) (iblk m ρ c 4 ⟨n + 1, hn⟩) (iblk m ρ c 5 ⟨n + 1, hn⟩) (iblk m ρ c 6 ⟨n + 1, hn⟩) (iblk m ρ c 7 ⟨n + 1, hn⟩) (iblk m ρ c 8 ⟨n + 1, hn⟩) (iblk m ρ c 9 ⟨n + 1, hn⟩) (accs c n (Nat.lt_of_succ_lt hn)).1,
     stepD (iblk m ρ c 8 ⟨n + 1, hn⟩) (iblk m ρ c 9 ⟨n + 1, hn⟩) (accs c n (Nat.lt_of_succ_lt hn)).2)

end Cert.Kernel.Hand

end
-- ==== Proof.KBOut.lean ====
/-
  What the body's stores leave in the accumulators is the body's own arithmetic of what it loaded: the one
  whole-block store each accumulator ends with holds the accumulator's loaded contents plus the tile's sum, and
  every load through a whole block of a buffer reads the buffer's contents.
-/
import proofs.«117279_j27805618274450_2_alg».proof.Proof.KBRunA
import proofs.«117279_j27805618274450_2_alg».proof.Proof.KBAcc
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

/-- Away from the first point the error accumulator's buffer ends at one step of the fold from what it held. -/
theorem outB10 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : ¬cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a10.view.ty.Contents (Elt F)) :
    a10.view.read (Elt F) (a10.view.writes (Elt F) f (kernelRunB c i a0 h0 a1 h1 a2 h2 a3 h3 a4 h4 a5 h5 a6 h6 a7 h7 a8 h8 a9 h9 a10 h10 a11 h11 hc x0 x1 x2 x3 x4 x5 x6 x7 x8 x9 xo10 xo11).1.1)
      = stepN x0 x1 x2 x3 x4 x5 x6 x7 x8 x9 xo10 := by
  rw [View.read_writes_eq_canon _ _ _ (fun y => View.cover_of_tiledL _ S1x1.size (by sl_kernel_rfl) y)]
  unfold kernelRunB; dsimp only; sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2]
  rfl

/-- Away from the first point the mask accumulator's buffer ends at one step of the fold from what it held. -/
theorem outB11 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : ¬cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a11.view.ty.Contents (Elt F)) :
    a11.view.read (Elt F) (a11.view.writes (Elt F) f (kernelRunB c i a0 h0 a1 h1 a2 h2 a3 h3 a4 h4 a5 h5 a6 h6 a7 h7 a8 h8 a9 h9 a10 h10 a11 h11 hc x0 x1 x2 x3 x4 x5 x6 x7 x8 x9 xo10 xo11).1.2)
      = stepD x8 x9 xo11 := by
  rw [View.read_writes_eq_canon _ _ _ (fun y => View.cover_of_tiledL _ S1x1.size (by sl_kernel_rfl) y)]
  unfold kernelRunB; dsimp only; sl_unfold_words
  rw [View.canon_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2, View.readCov_unit_zero (S := S1x1) _ hz2]
  rfl

/-- At the first point the error accumulator's buffer ends at one step of the fold from zero: the zero stored first is what the body loads back. -/
theorem outA10 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a10.view.ty.Contents (Elt F)) :
    a10.view.read (Elt F) (a10.view.writes (Elt F) f (kernelRunA c i a0 h0 a1 h1 a2 h2 a3 h3 a4 h4 a5 h5 a6 h6 a7 h7 a8 h8 a9 h9 a10 h10 a11 h11 hc x0 x1 x2 x3 x4 x5 x6 x7 x8 x9 xo10 xo11).1.1)
      = stepN x0 x1 x2 x3 x4 x5 x6 x7 x8 x9 (k0_pay3 (F := F)) := by
  rw [View.read_writes_eq_canon _ _ _ (fun y => View.cover_of_tiledL _ S1x1.size (by sl_kernel_rfl) y)]
  unfold kernelRunA; dsimp only; sl_unfold_words
  rw [View.canon_cons_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2, View.readCov_unit_zero (S := S1x1) _ hz2]
  rfl

/-- At the first point the mask accumulator's buffer ends at one step of the fold from zero. -/
theorem outA11 (c : Dev nD) (i : grid0.Coords) (a0 : Memref sig .tc .vmem S4x3x256 .f32) (h0 : a0.IsWhole) (a1 : Memref sig .tc .vmem S4x3x256 .f32) (h1 : a1.IsWhole) (a2 : Memref sig .tc .vmem S4x3x256 .f32) (h2 : a2.IsWhole) (a3 : Memref sig .tc .vmem S4x3x256 .f32) (h3 : a3.IsWhole) (a4 : Memref sig .tc .vmem S4x256 .f32) (h4 : a4.IsWhole) (a5 : Memref sig .tc .vmem S4x256 .f32) (h5 : a5.IsWhole) (a6 : Memref sig .tc .vmem S4x256 .f32) (h6 : a6.IsWhole) (a7 : Memref sig .tc .vmem S4x256 .f32) (h7 : a7.IsWhole) (a8 : Memref sig .tc .vmem S4x256 .f32) (h8 : a8.IsWhole) (a9 : Memref sig .tc .vmem S4x256 .f32) (h9 : a9.IsWhole) (a10 : Memref sig .tc .vmem S1x1 .f32) (h10 : a10.IsWhole) (a11 : Memref sig .tc .vmem S1x1 .f32) (h11 : a11.IsWhole) (hc : cond0 i)
    (x0 : Vec F S4x3x256 .f32) (x1 : Vec F S4x3x256 .f32) (x2 : Vec F S4x3x256 .f32) (x3 : Vec F S4x3x256 .f32) (x4 : Vec F S4x256 .f32) (x5 : Vec F S4x256 .f32) (x6 : Vec F S4x256 .f32) (x7 : Vec F S4x256 .f32) (x8 : Vec F S4x256 .f32) (x9 : Vec F S4x256 .f32) (xo10 xo11 : Vec F S1x1 .f32) (f : a11.view.ty.Contents (Elt F)) :
    a11.view.read (Elt F) (a11.view.writes (Elt F) f (kernelRunA c i a0 h0 a1 h1 a2 h2 a3 h3 a4 h4 a5 h5 a6 h6 a7 h7 a8 h8 a9 h9 a10 h10 a11 h11 hc x0 x1 x2 x3 x4 x5 x6 x7 x8 x9 xo10 xo11).1.2)
      = stepD x8 x9 (k0_pay4 (F := F)) := by
  rw [View.read_writes_eq_canon _ _ _ (fun y => View.cover_of_tiledL _ S1x1.size (by sl_kernel_rfl) y)]
  unfold kernelRunA; dsimp only; sl_unfold_words
  rw [View.canon_cons_unit_zero hz2]
  simp only [View.readAt_eq_ld, h0.read_unread, h1.read_unread, h2.read_unread, h3.read_unread, h4.read_unread, h5.read_unread, h6.read_unread, h7.read_unread, h8.read_unread, h9.read_unread, h10.read_unread, h11.read_unread, View.ld_unit_zero (S := S4x3x256) hz3, View.ld_unit_zero (S := S4x256) hz2, View.ld_unit_zero (S := S1x1) hz2, View.readCov_unit_zero (S := S1x1) _ hz2]
  rfl

end Cert.Kernel.Hand

end
-- ==== Proof.KBDat.lean ====
/-
  The proof data of the pairwise-loss pipeline: what every staging buffer holds after the body at every grid point.

  An input window's buffer holds its block of the array, as the region finds the array. The two accumulators are
  a left fold over the 144 grid points: at the first point zero plus that tile's sum, at every later point what
  the point before left plus this tile's sum — stated through the body's own arithmetic (`stepN`, `stepD`).
-/
import proofs.«117279_j27805618274450_2_alg».proof.Proof.KBOut
import proofs.«117279_j27805618274450_2_alg».proof.Proof.KBAcc
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input array is read by two windows; each window holds one half of it. -/
def halves : Fin cfg0.W → PosShare TreeShare
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare.left | ⟨7, _⟩ => fullShare.right
  | ⟨8, _⟩ => fullShare.left | ⟨9, _⟩ => fullShare.right | ⟨10, _⟩ => fullShare | ⟨11, _⟩ => fullShare
  | ⟨_ + 12, h⟩ => absurd h (Nat.not_lt.2 (Nat.le_add_left _ _))

/-- The proof data on core `c`. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => iblk m ρ c 8 t
    | ⟨9, _⟩ => iblk m ρ c 9 t
    | ⟨10, _⟩ => (accs m ρ c t.val t.isLt).1
    | ⟨11, _⟩ => (accs m ρ c t.val t.isLt).2
  Φ _ := Pipeline.scopedRest (Ix := Unit) (Name := ℕ) (U := UR sig nD τ) (Lvl := ℕ) (Val := Elt F) spec0 c
  q := halves
  owed _ := 0

theorem A_eq (c : Dev nD) (w : Fin cfg0.W) : (dats m ρ 0 c).A w = V m ρ c (Pipeline.arrRef spec0 w) := by
  dsimp only [dats]

theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = iblk m ρ c 2 t := by dsimp only [dats]
theorem after3 (c : Dev nD) (t : Fin cfg0.N) : (dats m ρ 0 c).after 3 t = iblk m ρ c 3 t := by dsimp only [dats]
theorem after4 (c : Dev nD) (t : Fin cfg0.N) : (dats m ρ 0 c).after 4 t = iblk m ρ c 4 t := by dsimp only [dats]
theorem after5 (c : Dev nD) (t : Fin cfg0.N) : (dats m ρ 0 c).after 5 t = iblk m ρ c 5 t := by dsimp only [dats]
theorem after6 (c : Dev nD) (t : Fin cfg0.N) : (dats m ρ 0 c).after 6 t = iblk m ρ c 6 t := by dsimp only [dats]
theorem after7 (c : Dev nD) (t : Fin cfg0.N) : (dats m ρ 0 c).after 7 t = iblk m ρ c 7 t := by dsimp only [dats]
theorem after8 (c : Dev nD) (t : Fin cfg0.N) : (dats m ρ 0 c).after 8 t = iblk m ρ c 8 t := by dsimp only [dats]
theorem after9 (c : Dev nD) (t : Fin cfg0.N) : (dats m ρ 0 c).after 9 t = iblk m ρ c 9 t := by dsimp only [dats]
theorem after10 (c : Dev nD) (t : Fin cfg0.N) : (dats m ρ 0 c).after 10 t = (accs m ρ c t.val t.isLt).1 := by dsimp only [dats]
theorem after11 (c : Dev nD) (t : Fin cfg0.N) : (dats m ρ 0 c).after 11 t = (accs m ρ c t.val t.isLt).2 := by dsimp only [dats]

/-- An input window's current staging buffer holds its block at every point, fetched there or not: unfetched, the
    block index has not moved since the fetch. -/
theorem before0 (c : Dev nD) (t : Fin cfg0.N) (d) : (dats m ρ 0 c).before 0 t d = iblk m ρ c 0 t :=
  ((dats m ρ 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m ρ 0 c).before 1 t d = iblk m ρ c 1 t :=
  ((dats m ρ 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m ρ 0 c).before 2 t d = iblk m ρ c 2 t :=
  ((dats m ρ 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m ρ 0 c).before 3 t d = iblk m ρ c 3 t :=
  ((dats m ρ 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m ρ 0 c).before 4 t d = iblk m ρ c 4 t :=
  ((dats m ρ 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m ρ 0 c).before 5 t d = iblk m ρ c 5 t :=
  ((dats m ρ 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m ρ 0 c).before 6 t d = iblk m ρ c 6 t :=
  ((dats m ρ 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m ρ 0 c).before 7 t d = iblk m ρ c 7 t :=
  ((dats m ρ 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m ρ 0 c).before 8 t d = iblk m ρ c 8 t :=
  ((dats m ρ 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m ρ 0 c).before 9 t d = iblk m ρ c 9 t :=
  ((dats m ρ 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

abbrev ms0 (t : Fin cfg0.N) : Memref sig .tc .vmem S4x3x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x3x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x3x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x3x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1 .f32 := win0_11.stage (cfg0.slots t 11)
abbrev hs11 (t : Fin cfg0.N) : (ms11 t).IsWhole := hstage0_11 ((cfg0.slots t 11).cast nbuf0_11)

/-! ## The accumulators' buffers when the body is entered -/

/-- No accumulator is written back before the last point. -/
theorem noflush10 (t : Fin cfg0.N) (ht : t.val ≠ 0) :
    (cfg0.win 10).flush ⟨t.val - 1, Nat.lt_of_le_of_lt (Nat.sub_le _ _) t.isLt⟩ = false := by
  have hN : t.val < 144 := lt_of_lt_of_eq t.isLt (show cfg0.N = 144 from N_0)
  exact Bool.eq_false_iff.mpr fun h => by have := (flush0_10 _).mp h; dsimp only at this; omega
theorem noflush11 (t : Fin cfg0.N) (ht : t.val ≠ 0) :
    (cfg0.win 11).flush ⟨t.val - 1, Nat.lt_of_le_of_lt (Nat.sub_le _ _) t.isLt⟩ = false := by
  have hN : t.val < 144 := lt_of_lt_of_eq t.isLt (show cfg0.N = 144 from N_0)
  exact Bool.eq_false_iff.mpr fun h => by have := (flush0_11 _).mp h; dsimp only at this; omega

/-- After the first point each accumulator's buffer holds what the body left at the point before. -/
theorem before10 (c : Dev nD) (t : Fin cfg0.N) (ht : t.val ≠ 0) (d) :
    (dats m ρ 0 c).before 10 t d = (accs m ρ c (t.val - 1) (Nat.lt_of_le_of_lt (Nat.sub_le _ _) t.isLt)).1 := by
  rw [Dat.before_out_kept _ 10 rfl t ht (noflush10 t ht) (fun _ => rfl) (fun _ _ => rfl)]
  dsimp only [dats]
theorem before11 (c : Dev nD) (t : Fin cfg0.N) (ht : t.val ≠ 0) (d) :
    (dats m ρ 0 c).before 11 t d = (accs m ρ c (t.val - 1) (Nat.lt_of_le_of_lt (Nat.sub_le _ _) t.isLt)).2 := by
  rw [Dat.before_out_kept _ 11 rfl t ht (noflush11 t ht) (fun _ => rfl) (fun _ _ => rfl)]
  dsimp only [dats]

/-- The fold at the first point, -/
theorem accs_first (c : Dev nD) (t : Fin cfg0.N) (h0 : t.val = 0) :
    accs m ρ c t.val t.isLt = (stepN (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (k0_pay3 (F := F)), stepD (iblk m ρ c 8 t) (iblk m ρ c 9 t) (k0_pay4 (F := F))) := by
  obtain ⟨n, hn⟩ := t
  cases n with
  | zero => rfl
  | succ n => exact absurd h0 (Nat.succ_ne_zero n)

/-- and at a later one. -/
theorem accs_later (c : Dev nD) (t : Fin cfg0.N) (h0 : t.val ≠ 0) :
    accs m ρ c t.val t.isLt
      = (stepN (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (accs m ρ c (t.val - 1) (Nat.lt_of_le_of_lt (Nat.sub_le _ _) t.isLt)).1,
         stepD (iblk m ρ c 8 t) (iblk m ρ c 9 t) (accs m ρ c (t.val - 1) (Nat.lt_of_le_of_lt (Nat.sub_le _ _) t.isLt)).2) := by
  obtain ⟨n, hn⟩ := t
  cases n with
  | zero => exact absurd rfl h0
  | succ n => rfl

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d))
    ∗ (∃ d, owns (c : Thread nD τ) (ms7 t) fullShare ((dats m ρ 0 c).before 7 t d))
    ∗ (∃ d, owns (c : Thread nD τ) (ms8 t) fullShare ((dats m ρ 0 c).before 8 t d))
    ∗ (∃ d, owns (c : Thread nD τ) (ms9 t) fullShare ((dats m ρ 0 c).before 9 t d))
    ∗ (∃ d, owns (c : Thread nD τ) (ms10 t) fullShare ((dats m ρ 0 c).before 10 t d))
    ∗ (∃ d, owns (c : Thread nD τ) (ms11 t) fullShare ((dats m ρ 0 c).before 11 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t)
    ∗ owns (c : Thread nD τ) (ms4 t) fullShare ((dats m ρ 0 c).after 4 t)
    ∗ owns (c : Thread nD τ) (ms5 t) fullShare ((dats m ρ 0 c).after 5 t)
    ∗ owns (c : Thread nD τ) (ms6 t) fullShare ((dats m ρ 0 c).after 6 t)
    ∗ owns (c : Thread nD τ) (ms7 t) fullShare ((dats m ρ 0 c).after 7 t)
    ∗ owns (c : Thread nD τ) (ms8 t) fullShare ((dats m ρ 0 c).after 8 t)
    ∗ owns (c : Thread nD τ) (ms9 t) fullShare ((dats m ρ 0 c).after 9 t)
    ∗ owns (c : Thread nD τ) (ms10 t) fullShare ((dats m ρ 0 c).after 10 t)
    ∗ owns (c : Thread nD τ) (ms11 t) fullShare ((dats m ρ 0 c).after 11 t))

set_option maxHeartbeats 1600000 in
/-- The body at any point: every input's buffer holds its block; the coordinates say which case the point is in;
    after the first point each accumulator's buffer holds what the point before left; so that case's run applies,
    and what it leaves is one step of the fold. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1, before2, before3, before4, before5, before6, before7, before8, before9]
  rw [show (dats m ρ 0 c).Φ t.succ = (dats m ρ 0 c).Φ t.castSucc from rfl,
    show (dats m ρ 0 c).owesAt () t.succ = (dats m ρ 0 c).owesAt () t.castSucc from rfl,
    after0, after1, after2, after3, after4, after5, after6, after7, after8, after9, after10, after11]
  by_cases h0 : t.val = 0
  · rw [accs_first m ρ c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRunA c (grid0.coords t) _ _ _ _ _ _ _ _ _ _ _ _ _ _ _ _ _ _ _ _ _ _ _ _ ((hcond0 t).mpr h0) (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact outA10 c _ _ _ _ _ _ _ _ _ _ _ _ _ _ _ _ _ _ _ _ _ _ _ _ _ _ _ _ _ _ _ _ _ _ _ _ _ _ _
    · unfold owns; iexists _; isplitr
      swap; · iexact H11
      ipureintro; exact outA11 c _ _ _ _ _ _ _ _ _ _ _ _ _ _ _ _ _ _ _ _ _ _ _ _ _ _ _ _ _ _ _ _ _ _ _ _ _ _ _
  · rw [accs_later m ρ c t h0]
    simp only [before10 m ρ c t h0, before11 m ρ c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRunB c (grid0.coords t) _ _ _ _ _ _ _ _ _ _ _ _ _ _ _ _ _ _ _ _ _ _ _ _ (fun h => h0 ((hcond0 t).mp h)) (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact outB10 c _ _ _ _ _ _ _ _ _ _ _ _ _ _ _ _ _ _ _ _ _ _ _ _ _ _ _ _ _ _ _ _ _ _ _ _ _ _ _
    · unfold owns; iexists _; isplitr
      swap; · iexact H11
      ipureintro; exact outB11 c _ _ _ _ _ _ _ _ _ _ _ _ _ _ _ _ _ _ _ _ _ _ _ _ _ _ _ _ _ _ _ _ _ _ _ _ _ _ _

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KBTail.lean ====
/-
  What the lines after the region start from: every buffer as the region found it, but for the two accumulators'
  arrays, which hold what the region wrote back.
-/
import proofs.«117279_j27805618274450_2_alg».proof.Proof.KBDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A TensorCore reference as a device buffer. -/
abbrev dr (b : Ref sig .tc) : DevRef τ sig := Proc.devRef .tc b

/-- The buffers' contents when the region is left. -/
def W1 (c : Dev nD) : Valuation τ sig (Elt F) :=
  Function.update (Function.update (StableHlo.after hostOps0 (V₀ m ρ c)) (dr main_v11_0) ((dats m ρ 0 c).arrAt 10 cfg0.N))
    (dr main_v11_1) ((dats m ρ 0 c).arrAt 11 cfg0.N)

end Cert.Kernel.Hand

end
-- ==== Proof.KBRun.lean ====
/-
  The launch of the pairwise-loss program: the host operations before the region, the region, the host operations
  after it, as three segments of @main.

  Five arrays are each read through two windows; each window is given one half of its array, the halves dealt at
  the region's entry. The two accumulators' arrays are written back once, at the last grid point, and the lines
  after the region read them: a reshape of each to a scalar, the mask sum plus epsilon, the quotient.
-/
import proofs.«117279_j27805618274450_2_alg».proof.Proof.KBTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, and their shares -/

/-- The seven distinct buffers behind the twelve windows' arrays. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v2) ↦{fullShare} Vv main_v2) ∗ (((c : Thread nD τ).loc main_v3) ↦{fullShare} Vv main_v3)
        ∗ (((c : Thread nD τ).loc main_v5) ↦{fullShare} Vv main_v5) ∗ (((c : Thread nD τ).loc main_v7) ↦{fullShare} Vv main_v7)
        ∗ (((c : Thread nD τ).loc main_v10) ↦{fullShare} Vv main_v10)
        ∗ (((c : Thread nD τ).loc main_v11_0) ↦{fullShare} Vv main_v11_0) ∗ (((c : Thread nD τ).loc main_v11_1) ↦{fullShare} Vv main_v11_1)) := by
  unfold Pipeline.arrBufs
  rw [bigSep_eq_bigSepL_of_eq [main_v2, main_v3, main_v5, main_v7, main_v10, main_v11_0, main_v11_1] (by decide) (by decide)]
  rfl

/-- The pipeline's arrays are whole buffers: each window's array at its share of its buffer. -/
theorem arrays_eq' (c : Dev nD) (Fw : (w : Fin cfg0.W) → Buf (Elt F) ((cfg0.win w).arr.view.loc (c : Thread nD τ))) :
    ((dats m ρ 0 c).arrays Fw : sProp 𝕄)
      = bigSep Finset.univ fun w : Fin 12 => ((((c : Thread nD τ).loc (Pipeline.arrRef spec0 w)) ↦{(dats m ρ 0 c).share w} Fw w : sProp 𝕄)) := by
  unfold Dat.arrays
  exact bigSep_congr fun w _ => by rw [(arr_whole0 w).set_eq_univ]

/-- The shares: a half for each window on a shared input array, all of it for an accumulator's. -/
theorem share0 (c : Dev nD) : (dats m ρ 0 c).share 0 = fullShare.left := rfl
theorem share1 (c : Dev nD) : (dats m ρ 0 c).share 1 = fullShare.right := rfl
theorem share2 (c : Dev nD) : (dats m ρ 0 c).share 2 = fullShare.left := rfl
theorem share3 (c : Dev nD) : (dats m ρ 0 c).share 3 = fullShare.right := rfl
theorem share4 (c : Dev nD) : (dats m ρ 0 c).share 4 = fullShare.left := rfl
theorem share5 (c : Dev nD) : (dats m ρ 0 c).share 5 = fullShare.right := rfl
theorem share6 (c : Dev nD) : (dats m ρ 0 c).share 6 = fullShare.left := rfl
theorem share7 (c : Dev nD) : (dats m ρ 0 c).share 7 = fullShare.right := rfl
theorem share8 (c : Dev nD) : (dats m ρ 0 c).share 8 = fullShare.left := rfl
theorem share9 (c : Dev nD) : (dats m ρ 0 c).share 9 = fullShare.right := rfl
theorem share10 (c : Dev nD) : (dats m ρ 0 c).share 10 = fullShare := rfl
theorem share11 (c : Dev nD) : (dats m ρ 0 c).share 11 = fullShare := rfl

/-! ## The segments of @main -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)

/-- The host operations before the region write their thirteen results and nothing else. -/
theorem not_written (b : Ref sig .tc) (hb : b ≠ main_v0 ∧ b ≠ main_v1 ∧ b ≠ main_v2 ∧ b ≠ main_v3 ∧ b ≠ main_v4 ∧ b ≠ main_cst ∧ b ≠ main_v5 ∧ b ≠ main_v6 ∧ b ≠ main_cst_0 ∧ b ≠ main_v7 ∧ b ≠ main_v8 ∧ b ≠ main_v9 ∧ b ≠ main_v10) :
    ∀ op ∈ (hostOps0 (F := F)), Proc.devRef .tc b ∉ op.writes := by
  obtain ⟨h0, h1, h2, h3, h4, h5, h6, h7, h8, h9, h10, h11, h12⟩ := hb
  intro op hop
  simp only [List.mem_cons, List.mem_nil_iff, or_false] at hop
  rcases hop with rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The three arguments reach the region, and the end, as launched. -/
theorem V_arg0 (c : Dev nD) : V m ρ c main_arg0 = m ((c : Thread nD τ).loc main_arg0) :=
  StableHlo.after_of_forall_not_mem (b := Proc.devRef .tc main_arg0) hostOps0 (V₀ m ρ c) (not_written main_arg0 (by decide))
theorem V_arg1 (c : Dev nD) : V m ρ c main_arg1 = m ((c : Thread nD τ).loc main_arg1) :=
  StableHlo.after_of_forall_not_mem (b := Proc.devRef .tc main_arg1) hostOps0 (V₀ m ρ c) (not_written main_arg1 (by decide))
theorem V_arg2 (c : Dev nD) : V m ρ c main_arg2 = m ((c : Thread nD τ).loc main_arg2) :=
  StableHlo.after_of_forall_not_mem (b := Proc.devRef .tc main_arg2) hostOps0 (V₀ m ρ c) (not_written main_arg2 (by decide))

/-- THE FIRST HOST SEGMENT: the thirteen operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The buffers the lines after the region touch. -/
abbrev tailRefsL : List (Ref sig .tc) := [main_v11_0, main_v11_1, main_v12, main_v13, main_cst_1, main_v14, main_v15]
abbrev S1 : Finset (DevRef τ sig) := (tailRefsL.map (Proc.devRef (τ := τ) .tc)).toFinset

/-- Those buffers held at a valuation, one by one. -/
theorem held_S1 (c : Dev nD) (W : Valuation τ sig (Elt F)) :
    (StableHlo.held (c : Thread nD τ) S1 W : sProp 𝕄)
      = iprop((((c : Thread nD τ).1, dr main_v11_0) ↦{fullShare} W (dr main_v11_0))
        ∗ (((c : Thread nD τ).1, dr main_v11_1) ↦{fullShare} W (dr main_v11_1))
        ∗ (((c : Thread nD τ).1, dr main_v12) ↦{fullShare} W (dr main_v12))
        ∗ (((c : Thread nD τ).1, dr main_v13) ↦{fullShare} W (dr main_v13))
        ∗ (((c : Thread nD τ).1, dr main_cst_1) ↦{fullShare} W (dr main_cst_1))
        ∗ (((c : Thread nD τ).1, dr main_v14) ↦{fullShare} W (dr main_v14))
        ∗ (((c : Thread nD τ).1, dr main_v15) ↦{fullShare} W (dr main_v15))) := by
  unfold StableHlo.held
  rw [bigSep_eq_bigSepL_of_eq (tailRefsL.map (Proc.devRef (τ := τ) .tc)) rfl
    ((List.nodup_map_iff (Proc.devRef_injective _)).mpr (by decide))]
  rfl

/-- The three arguments, kept beside the lines after the region. -/
abbrev Keep (c : Dev nD) : sProp 𝕄 :=
  iprop((((c : Thread nD τ).loc main_arg0) ↦{fullShare} V m ρ c main_arg0) ∗ (((c : Thread nD τ).loc main_arg1) ↦{fullShare} V m ρ c main_arg1)
    ∗ (((c : Thread nD τ).loc main_arg2) ↦{fullShare} V m ρ c main_arg2))

theorem mem_S1 (b : Ref sig .tc) (hb : b ∈ tailRefsL) : Proc.devRef (τ := τ) .tc b ∈ (S1 : Finset (DevRef τ sig)) :=
  List.mem_toFinset.mpr (List.mem_map_of_mem hb)

/-- THE SECOND HOST SEGMENT: the five operations after the region, over the buffers they touch. -/
def seg1 : Pipeline.HostSeg (Name := ℕ) (U := UR sig nD τ) (pcfgs (F := F)) defs₀ 𝒱₀ L lv :=
  Pipeline.HostSeg.ofOps _ _ _ _ _ S1 hostOps1
    (by
      intro op hop
      simp only [List.mem_cons, List.mem_nil_iff, or_false] at hop
      rcases hop with rfl | rfl | rfl | rfl | rfl
      · rw [StableHlo.reshape_bufs]; intro b hb; simp only [Finset.mem_insert, Finset.mem_singleton] at hb
        rcases hb with rfl | rfl <;> exact mem_S1 _ (by decide)
      · rw [StableHlo.reshape_bufs]; intro b hb; simp only [Finset.mem_insert, Finset.mem_singleton] at hb
        rcases hb with rfl | rfl <;> exact mem_S1 _ (by decide)
      · rw [StableHlo.nullary_bufs]; intro b hb; simp only [Finset.mem_singleton] at hb
        rcases hb with rfl; exact mem_S1 _ (by decide)
      · rw [StableHlo.binary_bufs]; intro b hb; simp only [Finset.mem_insert, Finset.mem_singleton] at hb
        rcases hb with rfl | rfl | rfl <;> exact mem_S1 _ (by decide)
      · rw [StableHlo.binary_bufs]; intro b hb; simp only [Finset.mem_insert, Finset.mem_singleton] at hb
        rcases hb with rfl | rfl | rfl <;> exact mem_S1 _ (by decide))
    (by intro _ h; (repeat (cases h with | head => rfl | tail _ h => ?_)); exact nomatch h)
    (W1 m ρ) (fun c => iprop(Keep m ρ c ∗ R c))

/-- What the program ends with: the lines' buffers after the lines, and the three arguments. -/
abbrev Tₙ (c : Dev nD) : sProp 𝕄 :=
  iprop(StableHlo.held (c : Thread nD τ) S1 (StableHlo.after hostOps1 (W1 m ρ c)) ∗ Keep m ρ c)

/-- Reading the valuation the region leaves: a buffer that is no accumulator's array is as the region found it. -/
theorem W1_other (c : Dev nD) (b : Ref sig .tc) (h0 : b ≠ main_v11_0) (h1 : b ≠ main_v11_1) :
    W1 m ρ c (dr b) = StableHlo.after hostOps0 (V₀ m ρ c) (dr b) := by
  unfold W1
  rw [Function.update_of_ne (StableHlo.devRef_ne_of_ne h1), Function.update_of_ne (StableHlo.devRef_ne_of_ne h0)]
theorem W1_10 (c : Dev nD) : W1 m ρ c (dr main_v11_0) = (dats m ρ 0 c).arrAt 10 cfg0.N := by
  unfold W1
  rw [Function.update_of_ne (StableHlo.devRef_ne_of_ne (by decide)), Function.update_self]
theorem W1_11 (c : Dev nD) : W1 m ρ c (dr main_v11_1) = (dats m ρ 0 c).arrAt 11 cfg0.N := by
  unfold W1
  rw [Function.update_self]

set_option backward.isDefEq.respectTransparency.types false in
set_option maxHeartbeats 1600000 in
/-- THE REGION: entered from what the first host segment left — each shared input array dealt in halves to its two
    windows, the accumulators' arrays whole, every other buffer bypassing —, left with the accumulators' arrays at
    what was written back and the buffers the later lines need. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none spec0
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) S1 (W1 m ρ c) ∗ (Keep m ρ c ∗ R c))
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c), arrBufs_eq, arrays_eq', bigSep_W0]
    simp only [share0, share1, share2, share3, share4, share5, share6, share7, share8, share9, share10, share11]
    iintro ⟨⟨⟨⟨H2, H3, H5, H7, H10, Ha, Hb⟩, Hrest⟩, HO⟩, -, -⟩
    ihave P2 := (pointsTo_share (PosShare.mem_left_op_right fullShare)).1 $$ H2
    icases P2 with ⟨H2l, H2r⟩
    ihave P3 := (pointsTo_share (PosShare.mem_left_op_right fullShare)).1 $$ H3
    icases P3 with ⟨H3l, H3r⟩
    ihave P5 := (pointsTo_share (PosShare.mem_left_op_right fullShare)).1 $$ H5
    icases P5 with ⟨H5l, H5r⟩
    ihave P7 := (pointsTo_share (PosShare.mem_left_op_right fullShare)).1 $$ H7
    icases P7 with ⟨H7l, H7r⟩
    ihave P10 := (pointsTo_share (PosShare.mem_left_op_right fullShare)).1 $$ H10
    icases P10 with ⟨H10l, H10r⟩
    imodintro
    isplitl [H2l H2r H3l H3r H5l H5r H7l H7r H10l H10r Ha Hb]
    ·
      isplitl [H2l]; · iexact H2l
      isplitl [H2r]; · iexact H2r
      isplitl [H3l]; · iexact H3l
      isplitl [H3r]; · iexact H3r
      isplitl [H5l]; · iexact H5l
      isplitl [H5r]; · iexact H5r
      isplitl [H7l]; · iexact H7l
      isplitl [H7r]; · iexact H7r
      isplitl [H10l]; · iexact H10l
      isplitl [H10r]; · iexact H10r
      isplitl [Ha]; · iexact Ha
      iexact Hb
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m ρ 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [arrays_eq', bigSep_W0, held_S1, unscopedRest0_eq]
    simp only [share0, share1, share2, share3, share4, share5, share6, share7, share8, share9, share10, share11, W1_10, W1_11]
    rw [W1_other m ρ c main_v12 (by decide) (by decide), W1_other m ρ c main_v13 (by decide) (by decide), W1_other m ρ c main_cst_1 (by decide) (by decide),
      W1_other m ρ c main_v14 (by decide) (by decide), W1_other m ρ c main_v15 (by decide) (by decide)]
    iintro ⟨⟨-, -, -, -, -, -, -, -, -, -, Ha, Hb⟩, HO, -, ⟨H_arg0, H_arg1, H_arg2, H_v0, H_v1, H_v4, H_cst, H_v6, H_cst_0, H_v8, H_v9, H_v12, H_v13, H_cst_1, H_v14, H_v15⟩⟩
    imodintro
    isplitl [Ha Hb H_v12 H_v13 H_cst_1 H_v14 H_v15]
    · isplitl [Ha]; · iexact Ha
      isplitl [Hb]; · iexact Hb
      isplitl [H_v12]; · iexact H_v12
      isplitl [H_v13]; · iexact H_v13
      isplitl [H_cst_1]; · iexact H_cst_1
      isplitl [H_v14]; · iexact H_v14
      iexact H_v15
    isplitl [H_arg0 H_arg1 H_arg2]
    · isplitl [H_arg0]; · iexact H_arg0
      isplitl [H_arg1]; · iexact H_arg1
      iexact H_arg2
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The physical post: the result's buffer at what the lines after the region compute from the accumulators' final
    arrays, the three arguments as launched. -/
def QC : PUnit × MemSt nD τ sig (Elt F) → Prop := fun r =>
  ∀ c : Dev nD, r.2.mem ((c : Thread nD τ).loc main_v15) = StableHlo.after hostOps1 (W1 m ρ c) (dr main_v15)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

set_option backward.isDefEq.respectTransparency.types false in
set_option maxHeartbeats 1600000 in
/-- At the compiled mesh, for any float values, from any memory with zero counters: every weakly fair execution of
    @main on the TensorCores terminates, and every final state has the result at the lines' value and the three
    arguments unchanged. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun c => by
      show (iprop(StableHlo.held (c : Thread nD τ) S1 (StableHlo.after hostOps1 (W1 m ρ c)) ∗ (Keep m ρ c ∗ R c)) : sProp 𝕄)
        ⊢ iprop(Tₙ m ρ c ∗ ∃ W, owes (c : Thread nD τ) (0 : CellTallies nD τ sig Unit) W)
      iintro ⟨Hh, HK, HR⟩
      isplitl [Hh HK]
      · isplitl [Hh] <;> iassumption
      iexact HR⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v15) = StableHlo.after hostOps1 (W1 m ρ c) (dr main_v15)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2))
    (hfin := fun c s' => by
      dsimp only [Tₙ, Keep]; rw [held_S1, V_arg0, V_arg1, V_arg2]
      iintro ⟨⟨⟨-, -, -, -, -, -, H15⟩, H0, H1, H2⟩, HSI⟩
      icombine HSI H15 gives %h15
      icombine HSI H0 gives %h0
      icombine HSI H1 gives %h1
      icombine HSI H2 gives %h2
      imodintro
      isplitr; · ipureintro; exact ⟨Buf.eq_of_forall_mem_univ h15, Buf.eq_of_forall_mem_univ h0, Buf.eq_of_forall_mem_univ h1, Buf.eq_of_forall_mem_univ h2⟩
      iexact HSI)
    (hQ := fun _ h => h)

end Cert.Kernel.Hand

end
-- ==== Proof.KIFinal.lean ====
import proofs.«117279_j27805618274450_2_alg».proof.Proof.KIDat
import Idealize.ShloMosaic.Lib.Pipeline.Value
import Idealize.ShloMosaic.Lib.Tactic

/-
  The two accumulator arrays after the run.

  Each of the two `[1, 1]` output windows is written back once, after the last of the 144 grid points, and its
  one block is its whole array. So the array ends holding what the body left in the window's buffer at the last
  point: the last value of the fold.
-/

noncomputable section

namespace Cert.PairLoss.KFin

open Cert.KernelIdeal Cert.KernelIdeal.Gen Cert.KernelIdeal.Hand
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The last grid point. -/
theorem lastLt : 143 < cfg0.N := by rw [show cfg0.N = 144 from N_0]; decide
abbrev tLast : Fin cfg0.N := ⟨143, lastLt⟩

/-- The numerator's accumulator after the last point, as contents of its result array. -/
abbrev last10 (c : Dev nD) : Buf (Elt F) ((c : Thread nD τ).loc main_v11_0) := (accs m ρ c 143 lastLt).1
/-- The denominator's accumulator after the last point, as contents of its result array. -/
abbrev last11 (c : Dev nD) : Buf (Elt F) ((c : Thread nD τ).loc main_v11_1) := (accs m ρ c 143 lastLt).2

/-- The one write-back of window 10, at the last point, writes the last accumulator value: block (0, 0) of the
    `[1, 1]` array read through zero offsets is the array. -/
theorem flushed10_eq (c : Dev nD) (t : Fin cfg0.N) (hf : (cfg0.win 10).flush t = true) :
    (dats m ρ 0 c).flushed 10 t = ((cfg0.win 10).blk t).view.read (Elt F) (last10 m ρ c) := by
  have hN : cfg0.N = 144 := N_0
  have h3 : t.val = 143 := by have := (flush0_10 t).mp hf; have := t.isLt; omega
  obtain rfl : t = tLast := Fin.ext h3
  show (cfg0.win 10).cut (grid0.coords tLast) ((dats m ρ 0 c).after 10 tLast) = _
  rw [after10]
  have hz' : (fun a => win0_10.index tLast a * main_v11_0.ty.shape.size a) = fun _ => 0 :=
    funext fun a => by fin_cases a <;> decide +kernel
  exact (Memref.read_access_unit_zero (Elt F) main_v11_0 hz' (fun a => by rw [congrFun hz' a]; simp) (last10 m ρ c)).symm

/-- So after all write-backs the array of window 10 holds the last accumulator value: the last point covers it. -/
theorem arr10_final (c : Dev nD) : (dats m ρ 0 c).arrAt 10 cfg0.N = last10 m ρ c :=
  (dats m ρ 0 c).arrAt_eq_of_cover 10 (last10 m ρ c) (flushed10_eq m ρ c) fun i =>
    ⟨tLast, (flush0_10 tLast).mpr rfl, by
      show i ∈ ((View.whole main_v11_0).slice (win0_10.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_10.index tLast 0 * win0_10.size 0 ≤ (i 0 : Nat)
          ∧ (i 0 : Nat) < win0_10.index tLast 0 * win0_10.size 0 + win0_10.xsize (grid0.coords tLast) 0
        rw [show win0_10.index tLast 0 * win0_10.size 0 = 0 from by decide +kernel,
          show win0_10.xsize (grid0.coords tLast) 0 = 1 from by decide +kernel]
        omega
      | ⟨1, _⟩ =>
        show win0_10.index tLast 1 * win0_10.size 1 ≤ (i 1 : Nat)
          ∧ (i 1 : Nat) < win0_10.index tLast 1 * win0_10.size 1 + win0_10.xsize (grid0.coords tLast) 1
        rw [show win0_10.index tLast 1 * win0_10.size 1 = 0 from by decide +kernel,
          show win0_10.xsize (grid0.coords tLast) 1 = 1 from by decide +kernel]
        omega⟩

/-- The one write-back of window 11, at the last point, writes the last accumulator value: block (0, 0) of the
    `[1, 1]` array read through zero offsets is the array. -/
theorem flushed11_eq (c : Dev nD) (t : Fin cfg0.N) (hf : (cfg0.win 11).flush t = true) :
    (dats m ρ 0 c).flushed 11 t = ((cfg0.win 11).blk t).view.read (Elt F) (last11 m ρ c) := by
  have hN : cfg0.N = 144 := N_0
  have h3 : t.val = 143 := by have := (flush0_11 t).mp hf; have := t.isLt; omega
  obtain rfl : t = tLast := Fin.ext h3
  show (cfg0.win 11).cut (grid0.coords tLast) ((dats m ρ 0 c).after 11 tLast) = _
  rw [after11]
  have hz' : (fun a => win0_11.index tLast a * main_v11_1.ty.shape.size a) = fun _ => 0 :=
    funext fun a => by fin_cases a <;> decide +kernel
  exact (Memref.read_access_unit_zero (Elt F) main_v11_1 hz' (fun a => by rw [congrFun hz' a]; simp) (last11 m ρ c)).symm

/-- So after all write-backs the array of window 11 holds the last accumulator value: the last point covers it. -/
theorem arr11_final (c : Dev nD) : (dats m ρ 0 c).arrAt 11 cfg0.N = last11 m ρ c :=
  (dats m ρ 0 c).arrAt_eq_of_cover 11 (last11 m ρ c) (flushed11_eq m ρ c) fun i =>
    ⟨tLast, (flush0_11 tLast).mpr rfl, by
      show i ∈ ((View.whole main_v11_1).slice (win0_11.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_11.index tLast 0 * win0_11.size 0 ≤ (i 0 : Nat)
          ∧ (i 0 : Nat) < win0_11.index tLast 0 * win0_11.size 0 + win0_11.xsize (grid0.coords tLast) 0
        rw [show win0_11.index tLast 0 * win0_11.size 0 = 0 from by decide +kernel,
          show win0_11.xsize (grid0.coords tLast) 0 = 1 from by decide +kernel]
        omega
      | ⟨1, _⟩ =>
        show win0_11.index tLast 1 * win0_11.size 1 ≤ (i 1 : Nat)
          ∧ (i 1 : Nat) < win0_11.index tLast 1 * win0_11.size 1 + win0_11.xsize (grid0.coords tLast) 1
        rw [show win0_11.index tLast 1 * win0_11.size 1 = 0 from by decide +kernel,
          show win0_11.xsize (grid0.coords tLast) 1 = 1 from by decide +kernel]
        omega⟩

end Cert.PairLoss.KFin

end
-- ==== Proof.Spec.lean ====
/-
  The pairwise distance loss as one function of five coordinate arrays, over the extended reals.

  For point sets `Z` (the truth) and `Zh` (the prediction), each `[4, 3072, 3]`, their squared norms `sq`, `sqh`
  (`[4, 3072]`) and a point mask `m` (`[4, 3072]`):
    d²(n,k)  = max (sq n + sq k - 2 · ⟨Z n, Z k⟩) 0,          D  = √d² where d² > 0, else 0   (`root`),
    E(n,k)   = min ((min Dh 20 - D)²) 25 · (m n · m k),        the loss = Σ E / (Σ m n · m k + ε),
  the sums over the batch and all pairs. Every operation is the extended reals' own; the literals are kept as
  their binary words.
-/
import Idealize.ShloMosaic.PureOps.Ideal
import Idealize.ShloMosaic.Lib.ValueIdx

noncomputable section

open scoped BigOperators

namespace Cert.PairLoss

open Idealize.ShloMosaic

/-- The extended real a 32-bit float word denotes. -/
abbrev lit (b : BitVec 32) : EReal := Ideal.ofBits .f32 b

/-- "x is greater than zero", as the one-bit word the comparison returns. -/
abbrev pos (x : EReal) : BitVec 1 := FloatOps.cmpf (F := Ideal) (φ := .f32) .ogt x (lit 0x00000000#32)

/-- The squared distance of two points from their squared norms and their inner product, clamped at zero. -/
def sqDist (sr sc dot : EReal) : EReal := max (sr + sc - lit 0x40000000#32 * dot) (lit 0x00000000#32)

/-- The guarded square root: √x where x > 0 (the root taken of 1 elsewhere, and discarded), else 0. -/
def root (x : EReal) : EReal :=
  Scalar.select (pos x) (Ideal.sqrt (Scalar.select (pos x) x (lit 0x3F800000#32))) (lit 0x00000000#32)

/-- The clamped squared error of a predicted distance `dh` (itself clamped at 20) against the true one `d`. -/
def err (dh d : EReal) : EReal :=
  min ((min dh (lit 0x41A00000#32) - d) * (min dh (lit 0x41A00000#32) - d)) (lit 0x41C80000#32)

variable (Z Zh : Fin 4 → Fin 3072 → Fin 3 → EReal) (sq sqh m : Fin 4 → Fin 3072 → EReal)

/-- The inner product of points `n` and `k` of batch `b`. -/
def dot (X : Fin 4 → Fin 3072 → Fin 3 → EReal) (b : Fin 4) (n k : Fin 3072) : EReal := ∑ d : Fin 3, X b n d * X b k d

/-- The pair mask. -/
def pm (b : Fin 4) (n k : Fin 3072) : EReal := m b n * m b k

/-- The masked error of the pair `(n, k)` of batch `b`. -/
def masked (b : Fin 4) (n k : Fin 3072) : EReal :=
  err (root (sqDist (sqh b n) (sqh b k) (dot Zh b n k))) (root (sqDist (sq b n) (sq b k) (dot Z b n k))) * pm m b n k

/-- The sum of the masked errors over the batch and all pairs. -/
def num : EReal := ∑ b : Fin 4, ∑ n : Fin 3072, ∑ k : Fin 3072, masked Z Zh sq sqh m b n k

/-- The sum of the pair mask. -/
def den : EReal := ∑ b : Fin 4, ∑ n : Fin 3072, ∑ k : Fin 3072, pm m b n k

/-- The loss. -/
def loss : EReal := Ideal.div (num Z Zh sq sqh m) (den m + lit 0x3727C5AC#32)

end Cert.PairLoss

end
-- ==== Proof.RefValue.lean ====
import proofs.«117279_j27805618274450_2_alg».proof.Proof.Gen.ReferenceIdeal.Read
import proofs.«117279_j27805618274450_2_alg».proof.Proof.Spec

/-
  The reference program's value, stage by stage, in coordinates.

  The point arrays, their squared norms and the point mask are read off the reference's own first stages
  (the reshape of a point array, the row sum of its squares, the reshape of the broadcast mask) at an index
  given by its coordinates. Each later stage, read at the index (b, n, k), is then the scalar function of the
  specification applied to those readings.
-/

noncomputable section

open scoped BigOperators

namespace Cert.PairLoss.Ref

open Cert.ReferenceIdeal Cert.ReferenceIdeal.Gen Cert.ReferenceIdeal.Read Idealize.ShloMosaic
open Idealize.ShloMosaic.ValueIdx

/-- A point array argument: `[4, 1024, 3, 3]`. -/
abbrev Pts := (⟨S4x1024x3x3, .f32⟩ : BufTy).Contents (Elt Ideal)
/-- The mask argument: `[4, 1024]`. -/
abbrev Msk := (⟨S4x1024, .f32⟩ : BufTy).Contents (Elt Ideal)

/-- The points of an argument array: its reshape to `[4, 3072, 3]`, at `(b, n, d)`. -/
def Zc (a : Pts) (b : Fin 4) (n : Fin 3072) (d : Fin 3) : EReal := val_main_v1 (F := Ideal) a (ix3 b n d)

/-- The squared norms of an argument array's points: the row sums of the squares of its reshape, at `(b, n)`. -/
def sqc (a : Pts) (b : Fin 4) (n : Fin 3072) : EReal := val_main_v25 (F := Ideal) a (ix2 b n)

/-- The point mask: the residue mask broadcast over the atoms and reshaped to `[4, 3072]`, at `(b, n)`. -/
def mc (a2 : Msk) (b : Fin 4) (n : Fin 3072) : EReal := val_main_v50 (F := Ideal) a2 (ix2 b n)

/-- The two reshapes are the same operation. -/
theorem v0_eq_v1 (a : Pts) : val_main_v0 (F := Ideal) a = val_main_v1 (F := Ideal) a := rfl

/-- The two row sums of squares are the same operations. -/
theorem v3_eq_v25 (a : Pts) : val_main_v3 (F := Ideal) a = val_main_v25 (F := Ideal) a := rfl

/-- The true distance of the points `n` and `k` of batch `b`. -/
theorem dist_truth (a : Pts) (b : Fin 4) (n k : Fin 3072) :
    val_main_v43 (F := Ideal) a (ix3 b n k)
      = root (sqDist (sqc a b n) (sqc a b k) (dot (Zc a) b n k)) := by
  have e1 : idx_main_v26 (idx_main_v28 (ix3 b n k)) = ix2 b n := by
    funext x; match x with | ⟨0, _⟩ => rfl | ⟨1, _⟩ => rfl
  have e2 : idx_main_v27 (idx_main_v29 (ix3 b n k)) = ix2 b k := by
    funext x; match x with | ⟨0, _⟩ => rfl | ⟨1, _⟩ => rfl
  have el : ∀ d : Fin 3, lidx_main_v31 (ix3 b n k) d = ix3 b n d := fun d => by
    funext x; match x with | ⟨0, _⟩ => rfl | ⟨1, _⟩ => rfl | ⟨2, _⟩ => rfl
  have er : ∀ d : Fin 3, ridx_main_v31 (ix3 b n k) d = ix3 b k d := fun d => by
    funext x; match x with | ⟨0, _⟩ => rfl | ⟨1, _⟩ => rfl | ⟨2, _⟩ => rfl
  simp only [val_main_v43_apply, val_main_v38_apply, val_main_v42_apply, val_main_call3_v1_apply,
    val_main_call3_v0_apply, val_main_cst_13_apply, val_main_v41_apply, val_main_v40_apply, val_main_v36_apply,
    val_main_call2_v1_apply, val_main_call2_v0_apply, val_main_cst_12_apply, val_main_v39_apply,
    val_main_cst_11_apply, val_main_v37_apply, val_main_cst_10_apply, val_main_v34_apply, val_main_v35_apply,
    val_main_cst_9_apply, val_main_v30_apply, val_main_v33_apply, val_main_v32_apply, val_main_cst_8_apply,
    val_main_v31_apply, val_main_v28_apply, val_main_v26_apply, val_main_v29_apply, val_main_v27_apply,
    e1, e2, el, er]
  rfl

/-- The predicted distance of the points `n` and `k` of batch `b`, before its clamp. -/
theorem dist_pred (a : Pts) (b : Fin 4) (n k : Fin 3072) :
    val_main_v21 (F := Ideal) a (ix3 b n k)
      = root (sqDist (sqc a b n) (sqc a b k) (dot (Zc a) b n k)) := by
  have e1 : idx_main_v4 (idx_main_v6 (ix3 b n k)) = ix2 b n := by
    funext x; match x with | ⟨0, _⟩ => rfl | ⟨1, _⟩ => rfl
  have e2 : idx_main_v5 (idx_main_v7 (ix3 b n k)) = ix2 b k := by
    funext x; match x with | ⟨0, _⟩ => rfl | ⟨1, _⟩ => rfl
  have el : ∀ d : Fin 3, lidx_main_v9 (ix3 b n k) d = ix3 b n d := fun d => by
    funext x; match x with | ⟨0, _⟩ => rfl | ⟨1, _⟩ => rfl | ⟨2, _⟩ => rfl
  have er : ∀ d : Fin 3, ridx_main_v9 (ix3 b n k) d = ix3 b k d := fun d => by
    funext x; match x with | ⟨0, _⟩ => rfl | ⟨1, _⟩ => rfl | ⟨2, _⟩ => rfl
  simp only [val_main_v21_apply, val_main_v16_apply, val_main_v20_apply, val_main_call1_v1_apply,
    val_main_call1_v0_apply, val_main_cst_5_apply, val_main_v19_apply, val_main_v18_apply, val_main_v14_apply,
    val_main_call0_v1_apply, val_main_call0_v0_apply, val_main_cst_4_apply, val_main_v17_apply,
    val_main_cst_3_apply, val_main_v15_apply, val_main_cst_2_apply, val_main_v12_apply, val_main_v13_apply,
    val_main_cst_1_apply, val_main_v8_apply, val_main_v11_apply, val_main_v10_apply, val_main_cst_0_apply,
    val_main_v9_apply, val_main_v6_apply, val_main_v4_apply, val_main_v7_apply, val_main_v5_apply,
    e1, e2, el, er, v3_eq_v25, v0_eq_v1]
  rfl

/-- The pair mask at `(b, n, k)`: the reference multiplies the column's mask by the row's. -/
theorem pm_at (a2 : Msk) (b : Fin 4) (n k : Fin 3072) :
    val_main_v55 (F := Ideal) a2 (ix3 b n k) = pm (mc a2) b n k := by
  have e1 : idx_main_v51 (idx_main_v53 (ix3 b n k)) = ix2 b k := by
    funext x; match x with | ⟨0, _⟩ => rfl | ⟨1, _⟩ => rfl
  have e2 : idx_main_v52 (idx_main_v54 (ix3 b n k)) = ix2 b n := by
    funext x; match x with | ⟨0, _⟩ => rfl | ⟨1, _⟩ => rfl
  simp only [val_main_v55_apply, val_main_v53_apply, val_main_v51_apply, val_main_v54_apply, val_main_v52_apply,
    e1, e2]
  show mc a2 b k * mc a2 b n = mc a2 b n * mc a2 b k
  exact mul_comm _ _

/-- The masked clamped squared error at `(b, n, k)`: the first argument array is the truth, the second the
    prediction. -/
theorem masked_at (a0 a1 : Pts) (a2 : Msk) (b : Fin 4) (n k : Fin 3072) :
    val_main_v56 (F := Ideal) a0 a1 a2 (ix3 b n k)
      = masked (Zc a0) (Zc a1) (sqc a0) (sqc a1) (mc a2) b n k := by
  simp only [val_main_v56_apply, val_main_v47_apply, val_main_v45_apply, val_main_v44_apply, val_main_v23_apply,
    val_main_v46_apply, val_main_cst_14_apply, val_main_v22_apply, val_main_cst_6_apply, dist_truth, dist_pred,
    pm_at]
  rfl

end Cert.PairLoss.Ref

end
-- ==== Proof.KIPrelude.lean ====
import proofs.«117279_j27805618274450_2_alg».proof.Proof.KIEntry
import proofs.«117279_j27805618274450_2_alg».proof.Proof.RefValue
import Idealize.ShloMosaic.Lib.StableHlo.Run
import Idealize.ShloMosaic.Lib.Pipeline.Value

/-
  The arrays the kernel's region finds, and its windows' blocks, in coordinates.

  Before the region the host reshapes the two point arrays, transposes them to `[4, 3, 3072]`, sums their
  squares along the coordinate axis, and broadcasts and reshapes the mask: the same operations as the first
  stages of the reference, a transpose apart. So each array, read at an index given by its coordinates, is a
  coordinate reading `Zc`, `sqc` or `mc` of an argument. A window's block at grid point `t = 12 i + j` is the
  `i`-th (a row window) or the `j`-th (a column window) run of 256 points of its array.
-/

noncomputable section

namespace Cert.PairLoss.KPre

open Cert.KernelIdeal Cert.KernelIdeal.Gen Cert.KernelIdeal.Hand
open Idealize.ShloMosaic Idealize.ShloMosaic.TcCoe Idealize.ShloMosaic.ValueIdx
open Idealize.SL Idealize.SL.Sem
open Cert.PairLoss.Ref

variable (m : (ℓ : Loc nD τ sig) → Buf (Elt Ideal) ℓ) (ρ : Dev nD → PrngReg) (c : Dev nD)

/-! ## The arrays -/

/-- The transposed truth at `(b, d, n)` is the truth's point `n` of batch `b` at coordinate `d`. -/
theorem v2_at (b : Fin 4) (d : Fin 3) (n : Fin 3072) :
    (V m ρ c main_v2 : S4x3x3072.Idx → EReal) (ix3 b d n) = Zc (m ((c.tc : Thread nD τ).loc main_arg0)) b n d := by
  have e : (V m ρ c main_v2 : S4x3x3072.Idx → EReal)
      = transpose S4x3x3072 [0, 2, 1] (Cert.ReferenceIdeal.Read.val_main_v1 (F := Ideal) (m ((c.tc : Thread nD τ).loc main_arg0)))
          transposes_S4x3072x3_S4x3x3072_0_2_1 := by
    dsimp only [V, V₀, hostOps0]
    after_results
    rfl
  rw [e]
  exact transpose_apply _ _ _ (ix3 b d n) (ix3 b n d)
    (fun x => match x with | ⟨0, _⟩ => rfl | ⟨1, _⟩ => rfl | ⟨2, _⟩ => rfl)

/-- The transposed prediction likewise. -/
theorem v3_at (b : Fin 4) (d : Fin 3) (n : Fin 3072) :
    (V m ρ c main_v3 : S4x3x3072.Idx → EReal) (ix3 b d n) = Zc (m ((c.tc : Thread nD τ).loc main_arg1)) b n d := by
  have e : (V m ρ c main_v3 : S4x3x3072.Idx → EReal)
      = transpose S4x3x3072 [0, 2, 1] (Cert.ReferenceIdeal.Read.val_main_v1 (F := Ideal) (m ((c.tc : Thread nD τ).loc main_arg1)))
          transposes_S4x3072x3_S4x3x3072_0_2_1 := by
    dsimp only [V, V₀, hostOps0]
    after_results
    rfl
  rw [e]
  exact transpose_apply _ _ _ (ix3 b d n) (ix3 b n d)
    (fun x => match x with | ⟨0, _⟩ => rfl | ⟨1, _⟩ => rfl | ⟨2, _⟩ => rfl)

/-- The truth's squared norms. -/
theorem v5_at (b : Fin 4) (n : Fin 3072) :
    (V m ρ c main_v5 : S4x3072.Idx → EReal) (ix2 b n) = sqc (m ((c.tc : Thread nD τ).loc main_arg0)) b n := by
  have e : (V m ρ c main_v5 : S4x3072.Idx → EReal)
      = Cert.ReferenceIdeal.Read.val_main_v25 (F := Ideal) (m ((c.tc : Thread nD τ).loc main_arg0)) := by
    dsimp only [V, V₀, hostOps0]
    after_results
    rfl
  rw [e]
  rfl

/-- The prediction's squared norms. -/
theorem v7_at (b : Fin 4) (n : Fin 3072) :
    (V m ρ c main_v7 : S4x3072.Idx → EReal) (ix2 b n) = sqc (m ((c.tc : Thread nD τ).loc main_arg1)) b n := by
  have e : (V m ρ c main_v7 : S4x3072.Idx → EReal)
      = Cert.ReferenceIdeal.Read.val_main_v25 (F := Ideal) (m ((c.tc : Thread nD τ).loc main_arg1)) := by
    dsimp only [V, V₀, hostOps0]
    after_results
    rfl
  rw [e]
  rfl

/-- The point mask. -/
theorem v10_at (b : Fin 4) (n : Fin 3072) :
    (V m ρ c main_v10 : S4x3072.Idx → EReal) (ix2 b n) = mc (m ((c.tc : Thread nD τ).loc main_arg2)) b n := by
  have e : (V m ρ c main_v10 : S4x3072.Idx → EReal)
      = Cert.ReferenceIdeal.Read.val_main_v50 (F := Ideal) (m ((c.tc : Thread nD τ).loc main_arg2)) := by
    dsimp only [V, V₀, hostOps0]
    after_results
    rfl
  rw [e]
  rfl

/-! ## The blocks -/

/-- The grid has 144 points. -/
theorem t_lt (t : Fin cfg0.N) : t.val < 144 := by
  have h := t.isLt
  have e : cfg0.N = 144 := N_0
  omega

/-- The point of the array under point `r` of the row block at grid point `t`. -/
abbrev rowIx (t : Fin cfg0.N) (r : Fin 256) : Fin 3072 :=
  ⟨256 * (t.val / 12) + r.val, by have := t_lt t; have := r.isLt; omega⟩
/-- The point of the array under point `r` of the column block at grid point `t`. -/
abbrev colIx (t : Fin cfg0.N) (r : Fin 256) : Fin 3072 :=
  ⟨256 * (t.val % 12) + r.val, by have := r.isLt; omega⟩

/-- Window 0's block index at point `t`: the whole of the first two axes, block `t.val / 12` of the points. -/
theorem idx0 : ∀ t : Fin cfg0.N, win0_0.index t (0 : Fin 3) = 0 ∧ win0_0.index t (1 : Fin 3) = 0
    ∧ win0_0.index t (2 : Fin 3) = t.val / 12 :=
  (by decide +kernel : ∀ t : Fin grid0.N, _)

/-- Window 0's block at point `t` is the row block of its array. -/
theorem blk0 (t : Fin cfg0.N) (b : Fin 4) (d : Fin 3) (r : Fin 256) :
    iblk m ρ c 0 t (ix3 b d r) = (V m ρ c main_v2 : S4x3x3072.Idx → EReal) (ix3 b d (rowIx t r)) := by
  obtain ⟨e0, e1, e2⟩ := idx0 t
  show (V m ρ c main_v2 : S4x3x3072.Idx → EReal) (((cfg0.win 0).blk t).view.emb (ix3 b d r)) = _
  refine congrArg _ (funext fun a => Fin.ext ?_)
  match a with
  | ⟨0, _⟩ => show win0_0.index t (0 : Fin 3) * 4 + 1 * b.val = b.val; omega
  | ⟨1, _⟩ => show win0_0.index t (1 : Fin 3) * 3 + 1 * d.val = d.val; omega
  | ⟨2, _⟩ => show win0_0.index t (2 : Fin 3) * 256 + 1 * r.val = 256 * (t.val / 12) + r.val; omega

/-- Window 0's block at point `t`, in the truth's points. -/
theorem iblk0_eq (t : Fin cfg0.N) (b : Fin 4) (d : Fin 3) (r : Fin 256) :
    iblk m ρ c 0 t (ix3 b d r) = Zc (m ((c.tc : Thread nD τ).loc main_arg0)) b (rowIx t r) d := by
  rw [blk0, v2_at]

/-- Window 1's block index at point `t`: the whole of the first two axes, block `t.val % 12` of the points. -/
theorem idx1 : ∀ t : Fin cfg0.N, win0_1.index t (0 : Fin 3) = 0 ∧ win0_1.index t (1 : Fin 3) = 0
    ∧ win0_1.index t (2 : Fin 3) = t.val % 12 :=
  (by decide +kernel : ∀ t : Fin grid0.N, _)

/-- Window 1's block at point `t` is the column block of its array. -/
theorem blk1 (t : Fin cfg0.N) (b : Fin 4) (d : Fin 3) (r : Fin 256) :
    iblk m ρ c 1 t (ix3 b d r) = (V m ρ c main_v2 : S4x3x3072.Idx → EReal) (ix3 b d (colIx t r)) := by
  obtain ⟨e0, e1, e2⟩ := idx1 t
  show (V m ρ c main_v2 : S4x3x3072.Idx → EReal) (((cfg0.win 1).blk t).view.emb (ix3 b d r)) = _
  refine congrArg _ (funext fun a => Fin.ext ?_)
  match a with
  | ⟨0, _⟩ => show win0_1.index t (0 : Fin 3) * 4 + 1 * b.val = b.val; omega
  | ⟨1, _⟩ => show win0_1.index t (1 : Fin 3) * 3 + 1 * d.val = d.val; omega
  | ⟨2, _⟩ => show win0_1.index t (2 : Fin 3) * 256 + 1 * r.val = 256 * (t.val % 12) + r.val; omega

/-- Window 1's block at point `t`, in the truth's points. -/
theorem iblk1_eq (t : Fin cfg0.N) (b : Fin 4) (d : Fin 3) (r : Fin 256) :
    iblk m ρ c 1 t (ix3 b d r) = Zc (m ((c.tc : Thread nD τ).loc main_arg0)) b (colIx t r) d := by
  rw [blk1, v2_at]

/-- Window 2's block index at point `t`: the whole of the first two axes, block `t.val / 12` of the points. -/
theorem idx2 : ∀ t : Fin cfg0.N, win0_2.index t (0 : Fin 3) = 0 ∧ win0_2.index t (1 : Fin 3) = 0
    ∧ win0_2.index t (2 : Fin 3) = t.val / 12 :=
  (by decide +kernel : ∀ t : Fin grid0.N, _)

/-- Window 2's block at point `t` is the row block of its array. -/
theorem blk2 (t : Fin cfg0.N) (b : Fin 4) (d : Fin 3) (r : Fin 256) :
    iblk m ρ c 2 t (ix3 b d r) = (V m ρ c main_v3 : S4x3x3072.Idx → EReal) (ix3 b d (rowIx t r)) := by
  obtain ⟨e0, e1, e2⟩ := idx2 t
  show (V m ρ c main_v3 : S4x3x3072.Idx → EReal) (((cfg0.win 2).blk t).view.emb (ix3 b d r)) = _
  refine congrArg _ (funext fun a => Fin.ext ?_)
  match a with
  | ⟨0, _⟩ => show win0_2.index t (0 : Fin 3) * 4 + 1 * b.val = b.val; omega
  | ⟨1, _⟩ => show win0_2.index t (1 : Fin 3) * 3 + 1 * d.val = d.val; omega
  | ⟨2, _⟩ => show win0_2.index t (2 : Fin 3) * 256 + 1 * r.val = 256 * (t.val / 12) + r.val; omega

/-- Window 2's block at point `t`, in the prediction's points. -/
theorem iblk2_eq (t : Fin cfg0.N) (b : Fin 4) (d : Fin 3) (r : Fin 256) :
    iblk m ρ c 2 t (ix3 b d r) = Zc (m ((c.tc : Thread nD τ).loc main_arg1)) b (rowIx t r) d := by
  rw [blk2, v3_at]

/-- Window 3's block index at point `t`: the whole of the first two axes, block `t.val % 12` of the points. -/
theorem idx3 : ∀ t : Fin cfg0.N, win0_3.index t (0 : Fin 3) = 0 ∧ win0_3.index t (1 : Fin 3) = 0
    ∧ win0_3.index t (2 : Fin 3) = t.val % 12 :=
  (by decide +kernel : ∀ t : Fin grid0.N, _)

/-- Window 3's block at point `t` is the column block of its array. -/
theorem blk3 (t : Fin cfg0.N) (b : Fin 4) (d : Fin 3) (r : Fin 256) :
    iblk m ρ c 3 t (ix3 b d r) = (V m ρ c main_v3 : S4x3x3072.Idx → EReal) (ix3 b d (colIx t r)) := by
  obtain ⟨e0, e1, e2⟩ := idx3 t
  show (V m ρ c main_v3 : S4x3x3072.Idx → EReal) (((cfg0.win 3).blk t).view.emb (ix3 b d r)) = _
  refine congrArg _ (funext fun a => Fin.ext ?_)
  match a with
  | ⟨0, _⟩ => show win0_3.index t (0 : Fin 3) * 4 + 1 * b.val = b.val; omega
  | ⟨1, _⟩ => show win0_3.index t (1 : Fin 3) * 3 + 1 * d.val = d.val; omega
  | ⟨2, _⟩ => show win0_3.index t (2 : Fin 3) * 256 + 1 * r.val = 256 * (t.val % 12) + r.val; omega

/-- Window 3's block at point `t`, in the prediction's points. -/
theorem iblk3_eq (t : Fin cfg0.N) (b : Fin 4) (d : Fin 3) (r : Fin 256) :
    iblk m ρ c 3 t (ix3 b d r) = Zc (m ((c.tc : Thread nD τ).loc main_arg1)) b (colIx t r) d := by
  rw [blk3, v3_at]

/-- Window 4's block index at point `t`: the whole batch axis, block `t.val / 12` of the points. -/
theorem idx4 : ∀ t : Fin cfg0.N, win0_4.index t (0 : Fin 2) = 0 ∧ win0_4.index t (1 : Fin 2) = t.val / 12 :=
  (by decide +kernel : ∀ t : Fin grid0.N, _)

/-- Window 4's block at point `t` is the row block of its array. -/
theorem blk4 (t : Fin cfg0.N) (b : Fin 4) (r : Fin 256) :
    iblk m ρ c 4 t (ix2 b r) = (V m ρ c main_v5 : S4x3072.Idx → EReal) (ix2 b (rowIx t r)) := by
  obtain ⟨e0, e1⟩ := idx4 t
  show (V m ρ c main_v5 : S4x3072.Idx → EReal) (((cfg0.win 4).blk t).view.emb (ix2 b r)) = _
  refine congrArg _ (funext fun a => Fin.ext ?_)
  match a with
  | ⟨0, _⟩ => show win0_4.index t (0 : Fin 2) * 4 + 1 * b.val = b.val; omega
  | ⟨1, _⟩ => show win0_4.index t (1 : Fin 2) * 256 + 1 * r.val = 256 * (t.val / 12) + r.val; omega

/-- Window 4's block at point `t`, in the truth's squared norms. -/
theorem iblk4_eq (t : Fin cfg0.N) (b : Fin 4) (r : Fin 256) :
    iblk m ρ c 4 t (ix2 b r) = sqc (m ((c.tc : Thread nD τ).loc main_arg0)) b (rowIx t r) := by
  rw [blk4, v5_at]

/-- Window 5's block index at point `t`: the whole batch axis, block `t.val % 12` of the points. -/
theorem idx5 : ∀ t : Fin cfg0.N, win0_5.index t (0 : Fin 2) = 0 ∧ win0_5.index t (1 : Fin 2) = t.val % 12 :=
  (by decide +kernel : ∀ t : Fin grid0.N, _)

/-- Window 5's block at point `t` is the column block of its array. -/
theorem blk5 (t : Fin cfg0.N) (b : Fin 4) (r : Fin 256) :
    iblk m ρ c 5 t (ix2 b r) = (V m ρ c main_v5 : S4x3072.Idx → EReal) (ix2 b (colIx t r)) := by
  obtain ⟨e0, e1⟩ := idx5 t
  show (V m ρ c main_v5 : S4x3072.Idx → EReal) (((cfg0.win 5).blk t).view.emb (ix2 b r)) = _
  refine congrArg _ (funext fun a => Fin.ext ?_)
  match a with
  | ⟨0, _⟩ => show win0_5.index t (0 : Fin 2) * 4 + 1 * b.val = b.val; omega
  | ⟨1, _⟩ => show win0_5.index t (1 : Fin 2) * 256 + 1 * r.val = 256 * (t.val % 12) + r.val; omega

/-- Window 5's block at point `t`, in the truth's squared norms. -/
theorem iblk5_eq (t : Fin cfg0.N) (b : Fin 4) (r : Fin 256) :
    iblk m ρ c 5 t (ix2 b r) = sqc (m ((c.tc : Thread nD τ).loc main_arg0)) b (colIx t r) := by
  rw [blk5, v5_at]

/-- Window 6's block index at point `t`: the whole batch axis, block `t.val / 12` of the points. -/
theorem idx6 : ∀ t : Fin cfg0.N, win0_6.index t (0 : Fin 2) = 0 ∧ win0_6.index t (1 : Fin 2) = t.val / 12 :=
  (by decide +kernel : ∀ t : Fin grid0.N, _)

/-- Window 6's block at point `t` is the row block of its array. -/
theorem blk6 (t : Fin cfg0.N) (b : Fin 4) (r : Fin 256) :
    iblk m ρ c 6 t (ix2 b r) = (V m ρ c main_v7 : S4x3072.Idx → EReal) (ix2 b (rowIx t r)) := by
  obtain ⟨e0, e1⟩ := idx6 t
  show (V m ρ c main_v7 : S4x3072.Idx → EReal) (((cfg0.win 6).blk t).view.emb (ix2 b r)) = _
  refine congrArg _ (funext fun a => Fin.ext ?_)
  match a with
  | ⟨0, _⟩ => show win0_6.index t (0 : Fin 2) * 4 + 1 * b.val = b.val; omega
  | ⟨1, _⟩ => show win0_6.index t (1 : Fin 2) * 256 + 1 * r.val = 256 * (t.val / 12) + r.val; omega

/-- Window 6's block at point `t`, in the prediction's squared norms. -/
theorem iblk6_eq (t : Fin cfg0.N) (b : Fin 4) (r : Fin 256) :
    iblk m ρ c 6 t (ix2 b r) = sqc (m ((c.tc : Thread nD τ).loc main_arg1)) b (rowIx t r) := by
  rw [blk6, v7_at]

/-- Window 7's block index at point `t`: the whole batch axis, block `t.val % 12` of the points. -/
theorem idx7 : ∀ t : Fin cfg0.N, win0_7.index t (0 : Fin 2) = 0 ∧ win0_7.index t (1 : Fin 2) = t.val % 12 :=
  (by decide +kernel : ∀ t : Fin grid0.N, _)

/-- Window 7's block at point `t` is the column block of its array. -/
theorem blk7 (t : Fin cfg0.N) (b : Fin 4) (r : Fin 256) :
    iblk m ρ c 7 t (ix2 b r) = (V m ρ c main_v7 : S4x3072.Idx → EReal) (ix2 b (colIx t r)) := by
  obtain ⟨e0, e1⟩ := idx7 t
  show (V m ρ c main_v7 : S4x3072.Idx → EReal) (((cfg0.win 7).blk t).view.emb (ix2 b r)) = _
  refine congrArg _ (funext fun a => Fin.ext ?_)
  match a with
  | ⟨0, _⟩ => show win0_7.index t (0 : Fin 2) * 4 + 1 * b.val = b.val; omega
  | ⟨1, _⟩ => show win0_7.index t (1 : Fin 2) * 256 + 1 * r.val = 256 * (t.val % 12) + r.val; omega

/-- Window 7's block at point `t`, in the prediction's squared norms. -/
theorem iblk7_eq (t : Fin cfg0.N) (b : Fin 4) (r : Fin 256) :
    iblk m ρ c 7 t (ix2 b r) = sqc (m ((c.tc : Thread nD τ).loc main_arg1)) b (colIx t r) := by
  rw [blk7, v7_at]

/-- Window 8's block index at point `t`: the whole batch axis, block `t.val / 12` of the points. -/
theorem idx8 : ∀ t : Fin cfg0.N, win0_8.index t (0 : Fin 2) = 0 ∧ win0_8.index t (1 : Fin 2) = t.val / 12 :=
  (by decide +kernel : ∀ t : Fin grid0.N, _)

/-- Window 8's block at point `t` is the row block of its array. -/
theorem blk8 (t : Fin cfg0.N) (b : Fin 4) (r : Fin 256) :
    iblk m ρ c 8 t (ix2 b r) = (V m ρ c main_v10 : S4x3072.Idx → EReal) (ix2 b (rowIx t r)) := by
  obtain ⟨e0, e1⟩ := idx8 t
  show (V m ρ c main_v10 : S4x3072.Idx → EReal) (((cfg0.win 8).blk t).view.emb (ix2 b r)) = _
  refine congrArg _ (funext fun a => Fin.ext ?_)
  match a with
  | ⟨0, _⟩ => show win0_8.index t (0 : Fin 2) * 4 + 1 * b.val = b.val; omega
  | ⟨1, _⟩ => show win0_8.index t (1 : Fin 2) * 256 + 1 * r.val = 256 * (t.val / 12) + r.val; omega

/-- Window 8's block at point `t`, in the point mask. -/
theorem iblk8_eq (t : Fin cfg0.N) (b : Fin 4) (r : Fin 256) :
    iblk m ρ c 8 t (ix2 b r) = mc (m ((c.tc : Thread nD τ).loc main_arg2)) b (rowIx t r) := by
  rw [blk8, v10_at]

/-- Window 9's block index at point `t`: the whole batch axis, block `t.val % 12` of the points. -/
theorem idx9 : ∀ t : Fin cfg0.N, win0_9.index t (0 : Fin 2) = 0 ∧ win0_9.index t (1 : Fin 2) = t.val % 12 :=
  (by decide +kernel : ∀ t : Fin grid0.N, _)

/-- Window 9's block at point `t` is the column block of its array. -/
theorem blk9 (t : Fin cfg0.N) (b : Fin 4) (r : Fin 256) :
    iblk m ρ c 9 t (ix2 b r) = (V m ρ c main_v10 : S4x3072.Idx → EReal) (ix2 b (colIx t r)) := by
  obtain ⟨e0, e1⟩ := idx9 t
  show (V m ρ c main_v10 : S4x3072.Idx → EReal) (((cfg0.win 9).blk t).view.emb (ix2 b r)) = _
  refine congrArg _ (funext fun a => Fin.ext ?_)
  match a with
  | ⟨0, _⟩ => show win0_9.index t (0 : Fin 2) * 4 + 1 * b.val = b.val; omega
  | ⟨1, _⟩ => show win0_9.index t (1 : Fin 2) * 256 + 1 * r.val = 256 * (t.val % 12) + r.val; omega

/-- Window 9's block at point `t`, in the point mask. -/
theorem iblk9_eq (t : Fin cfg0.N) (b : Fin 4) (r : Fin 256) :
    iblk m ρ c 9 t (ix2 b r) = mc (m ((c.tc : Thread nD τ).loc main_arg2)) b (colIx t r) := by
  rw [blk9, v10_at]

end Cert.PairLoss.KPre

end
-- ==== Proof.TileLayout.lean ====
/-
  The layout operations of one tile, read at an index: a coordinate row cut from a block of points, the casts
  that turn a vector into a column or a row, the two broadcasts to the square of pairs, and the three sums that
  reduce the square to one number.
-/
import proofs.«117279_j27805618274450_2_alg».proof.Proof.Gen.KernelIdeal.Skeleton
import Idealize.ShloMosaic.Lib.ValueLayout
import Idealize.ShloMosaic.PureOps.Ideal.Laws

noncomputable section

open scoped BigOperators

namespace Cert.PairLoss.Tile

open Idealize.ShloMosaic Idealize.ShloMosaic.ValueIdx Cert.KernelIdeal

variable {α : Type}

/-- Coordinate 0 of a block of points, cut out as a row, reads the block at coordinate 0. -/
theorem slice0_apply (X : S4x3x256.Idx → α) (h : S4x3x256.Slices ![0, 0, 0] S4x1x256) (b : Fin 4) (u : Fin 1) (r : Fin 256) :
    extractStridedSlice S4x1x256 ![0, 0, 0] X h (ix3 b u r) = X (ix3 b (0 : Fin 3) r) :=
  slice3_axis1_apply 0 X h b u r 0 (by have := u.isLt; show 0 = 0 + u.val; omega)

/-- Coordinate 1 likewise. -/
theorem slice1_apply (X : S4x3x256.Idx → α) (h : S4x3x256.Slices ![0, 1, 0] S4x1x256) (b : Fin 4) (u : Fin 1) (r : Fin 256) :
    extractStridedSlice S4x1x256 ![0, 1, 0] X h (ix3 b u r) = X (ix3 b (1 : Fin 3) r) :=
  slice3_axis1_apply 1 X h b u r 1 (by have := u.isLt; show 1 = 1 + u.val; omega)

/-- Coordinate 2 likewise. -/
theorem slice2_apply (X : S4x3x256.Idx → α) (h : S4x3x256.Slices ![0, 2, 0] S4x1x256) (b : Fin 4) (u : Fin 1) (r : Fin 256) :
    extractStridedSlice S4x1x256 ![0, 2, 0] X h (ix3 b u r) = X (ix3 b (2 : Fin 3) r) :=
  slice3_axis1_apply 2 X h b u r 2 (by have := u.isLt; show 2 = 2 + u.val; omega)

/-- A `[4, 1, 256]` row read as `[4, 256]`. -/
theorem cast_row_flat_apply (x : S4x1x256.Idx → α) (h : S4x1x256.ShapeCasts S4x256) (b : Fin 4) (r : Fin 256) :
    shapeCast S4x256 x h (ix2 b r) = x (ix3 b (0 : Fin 1) r) :=
  shapeCast_apply x h _ _ (by
    rw [Shape.rowMajor_val_three, Shape.rowMajor_val_two]
    show (b.val * 1 + 0) * 256 + r.val = b.val * 256 + r.val
    omega)

/-- A `[4, 256]` vector read as a column `[4, 256, 1]`. -/
theorem cast_flat_col_apply (x : S4x256.Idx → α) (h : S4x256.ShapeCasts S4x256x1) (b : Fin 4) (r : Fin 256) (u : Fin 1) :
    shapeCast S4x256x1 x h (ix3 b r u) = x (ix2 b r) :=
  shapeCast_apply x h _ _ (by
    have hu : u.val = 0 := by omega
    rw [Shape.rowMajor_val_three, Shape.rowMajor_val_two]
    show b.val * 256 + r.val = (b.val * 256 + r.val) * 1 + u.val
    omega)

/-- A `[4, 256]` vector read as a row `[4, 1, 256]`. -/
theorem cast_flat_row_apply (x : S4x256.Idx → α) (h : S4x256.ShapeCasts S4x1x256) (b : Fin 4) (u : Fin 1) (c : Fin 256) :
    shapeCast S4x1x256 x h (ix3 b u c) = x (ix2 b c) :=
  shapeCast_apply x h _ _ (by
    have hu : u.val = 0 := by omega
    rw [Shape.rowMajor_val_three, Shape.rowMajor_val_two]
    show b.val * 256 + c.val = (b.val * 1 + u.val) * 256 + c.val
    omega)

/-- A `[4, 1]` vector read as `[4, 1, 1]`. -/
theorem cast_41_411_apply (x : S4x1.Idx → α) (h : S4x1.ShapeCasts S4x1x1) (b : Fin 4) (u v : Fin 1) :
    shapeCast S4x1x1 x h (ix3 b u v) = x (ix2 b (0 : Fin 1)) :=
  shapeCast_apply x h _ _ (by
    have hu : u.val = 0 := by omega
    have hv : v.val = 0 := by omega
    rw [Shape.rowMajor_val_three, Shape.rowMajor_val_two]
    show b.val * 1 + 0 = (b.val * 1 + u.val) * 1 + v.val
    omega)

/-- A column broadcast over the square of pairs reads its row's entry. -/
theorem bcast_col_apply (x : S4x256x1.Idx → α) (h : S4x256x1.Broadcasts S4x256x256) (b : Fin 4) (r c : Fin 256) :
    broadcastTo S4x256x256 x h (ix3 b r c) = x (ix3 b r (0 : Fin 1)) := by
  refine broadcastTo_apply x h (ix3 b r c) (ix3 b r (0 : Fin 1)) fun ax => ?_
  match ax with
  | ⟨0, _⟩ => rfl
  | ⟨1, _⟩ => rfl
  | ⟨2, _⟩ => rfl

/-- A row broadcast over the square of pairs reads its column's entry. -/
theorem bcast_row_apply (x : S4x1x256.Idx → α) (h : S4x1x256.Broadcasts S4x256x256) (b : Fin 4) (r c : Fin 256) :
    broadcastTo S4x256x256 x h (ix3 b r c) = x (ix3 b (0 : Fin 1) c) := by
  refine broadcastTo_apply x h (ix3 b r c) (ix3 b (0 : Fin 1) c) fun ax => ?_
  match ax with
  | ⟨0, _⟩ => rfl
  | ⟨1, _⟩ => rfl
  | ⟨2, _⟩ => rfl

/-- The sum over the columns of the square. -/
theorem reduce_c (v : FVec Ideal S4x256x256 .f32) (h : S4x256x256.Reduces [2] S4x256) (hφ : FKind.Formats .f32)
    (hacc : (0x00000000#32 : BitVec 32) = 0x00000000#32) (b : Fin 4) (r : Fin 256) :
    multiReduction (F := Ideal) .add [2] S4x256 v 0x00000000#32 h hφ hacc (ix2 b r) = ∑ c : Fin 256, v (ix3 b r c) := by
  refine (Ideal.multiReduction_add_single v 0x00000000#32 h hφ hacc (ix2 b r)).trans ?_
  refine Finset.sum_congr rfl fun c _ => congrArg v ?_
  funext a
  match a with
  | ⟨0, _⟩ => rfl
  | ⟨1, _⟩ => rfl
  | ⟨2, _⟩ => rfl

/-- The sum over the rows of a column. -/
theorem reduce_r (v : FVec Ideal S4x256x1 .f32) (h : S4x256x1.Reduces [1] S4x1) (hφ : FKind.Formats .f32)
    (hacc : (0x00000000#32 : BitVec 32) = 0x00000000#32) (b : Fin 4) (u : Fin 1) :
    multiReduction (F := Ideal) .add [1] S4x1 v 0x00000000#32 h hφ hacc (ix2 b u) = ∑ r : Fin 256, v (ix3 b r u) := by
  refine (Ideal.multiReduction_add_single v 0x00000000#32 h hφ hacc (ix2 b u)).trans ?_
  refine Finset.sum_congr rfl fun r _ => congrArg v ?_
  funext a
  match a with
  | ⟨0, _⟩ => rfl
  | ⟨1, _⟩ => rfl
  | ⟨2, _⟩ => rfl

/-- The sum over the batch. -/
theorem reduce_b (v : FVec Ideal S4x1x1 .f32) (h : S4x1x1.Reduces [0] S1x1) (hφ : FKind.Formats .f32)
    (hacc : (0x00000000#32 : BitVec 32) = 0x00000000#32) (u w : Fin 1) :
    multiReduction (F := Ideal) .add [0] S1x1 v 0x00000000#32 h hφ hacc (ix2 u w) = ∑ b : Fin 4, v (ix3 b u w) := by
  refine (Ideal.multiReduction_add_single v 0x00000000#32 h hφ hacc (ix2 u w)).trans ?_
  refine Finset.sum_congr rfl fun b _ => congrArg v ?_
  funext a
  match a with
  | ⟨0, _⟩ => rfl
  | ⟨1, _⟩ => rfl
  | ⟨2, _⟩ => rfl

end Cert.PairLoss.Tile

end
-- ==== Proof.TilePay.lean ====
/-
  The arithmetic of one tile, read at a pair (b, r, c): the inner products, the clamped squared distances,
  the pair mask and the masked error, each as the scalar function of the loss's statement.
-/
import proofs.«117279_j27805618274450_2_alg».proof.Proof.TileLayout
import proofs.«117279_j27805618274450_2_alg».proof.Proof.Spec

noncomputable section

open scoped BigOperators

namespace Cert.PairLoss.Tile

open Idealize.ShloMosaic Idealize.ShloMosaic.ValueIdx Cert.KernelIdeal Cert.KernelIdeal.Gen

/-- A vector's square root, read at an index. -/
theorem sqrt_apply {s : Shape} {φ : FTy} (a : FVec Ideal s φ) (i : s.Idx) : sqrt a i = Ideal.sqrt (a i) := rfl

/-- The pair mask of the tile at a pair. -/
theorem pay13_apply (mr mc : Vec Ideal S4x256 .f32) (b : Fin 4) (r c : Fin 256) :
    k0_pay13 (F := Ideal) mr mc (ix3 b r c) = mr (ix2 b r) * mc (ix2 b c) := by
  unfold k0_pay13
  simp only [mulf_apply, bcast_col_apply, bcast_row_apply, cast_flat_col_apply, cast_flat_row_apply, shapeCast_self]

/-- The inner product of a row point and a column point of the truth blocks. -/
theorem pay7_apply (zr zc : Vec Ideal S4x3x256 .f32) (b : Fin 4) (r c : Fin 256) :
    k0_pay7 (F := Ideal) zr zc (ix3 b r c) = ∑ d : Fin 3, zr (ix3 b d r) * zc (ix3 b d c) := by
  unfold k0_pay7
  simp only [addf_apply, mulf_apply, bcast_col_apply, bcast_row_apply, cast_flat_col_apply, cast_flat_row_apply,
    cast_row_flat_apply, slice0_apply, slice1_apply, slice2_apply, shapeCast_self, Fin.sum_univ_three]

/-- The inner product of a row point and a column point of the prediction blocks. -/
theorem pay8_apply (zhr zhc : FVec Ideal S4x3x256 .f32) (b : Fin 4) (r c : Fin 256) :
    k0_pay8 (F := Ideal) zhr zhc (ix3 b r c) = ∑ d : Fin 3, zhr (ix3 b d r) * zhc (ix3 b d c) := by
  unfold k0_pay8
  simp only [addf_apply, mulf_apply, bcast_col_apply, bcast_row_apply, cast_flat_col_apply, cast_flat_row_apply,
    cast_row_flat_apply, slice0_apply, slice1_apply, slice2_apply, Fin.sum_univ_three]

/-- A block cast to its own shape is the block. -/
theorem pay5_eq (v : Vec Ideal S4x3x256 .f32) : k0_pay5 (F := Ideal) v = v := by
  unfold k0_pay5; exact shapeCast_self _ _

theorem pay6_eq (v : Vec Ideal S4x3x256 .f32) : k0_pay6 (F := Ideal) v = v := by
  unfold k0_pay6; exact shapeCast_self _ _

theorem pay9_eq (v : Vec Ideal S4x256 .f32) : k0_pay9 (F := Ideal) v = v := by
  unfold k0_pay9; exact shapeCast_self _ _

theorem pay10_eq (v : Vec Ideal S4x256 .f32) : k0_pay10 (F := Ideal) v = v := by
  unfold k0_pay10; exact shapeCast_self _ _

/-- The clamped squared distance of the truth at a pair, from the squared norms and an inner product. -/
theorem pay11_apply (v41 : FVec Ideal S4x256x256 .f32) (sr sc : Vec Ideal S4x256 .f32) (b : Fin 4) (r c : Fin 256) :
    k0_pay11 (F := Ideal) v41 sr sc (ix3 b r c) = sqDist (sr (ix2 b r)) (sc (ix2 b c)) (v41 (ix3 b r c)) := by
  unfold k0_pay11 sqDist
  simp only [addf_apply, subf_apply, mulf_apply, maximumf_apply, broadcast_apply, bcast_col_apply, bcast_row_apply,
    cast_flat_col_apply, cast_flat_row_apply, shapeCast_self]
  rfl

/-- Its comparison with zero. -/
theorem pay12_apply (v41 : FVec Ideal S4x256x256 .f32) (sr sc : Vec Ideal S4x256 .f32) (b : Fin 4) (r c : Fin 256) :
    k0_pay12 (F := Ideal) v41 sr sc (ix3 b r c) = pos (k0_pay11 (F := Ideal) v41 sr sc (ix3 b r c)) := rfl

/-- The masked error at a pair, from the prediction's inner product and squared norms, the truth's clamped squared
    distance with its comparison with zero, and the masks. -/
theorem pay14_apply (v70 : FVec Ideal S4x256x256 .f32) (v76 v78 : FVec Ideal S4x256 .f32) (v88 : FVec Ideal S4x256x256 .f32)
    (v90 : IVec S4x256x256 1) (mr mc : Vec Ideal S4x256 .f32) (b : Fin 4) (r c : Fin 256)
    (h90 : v90 (ix3 b r c) = pos (v88 (ix3 b r c))) :
    k0_pay14 (F := Ideal) v70 v76 v78 v88 v90 mr mc (ix3 b r c)
      = err (root (sqDist (v76 (ix2 b r)) (v78 (ix2 b c)) (v70 (ix3 b r c)))) (root (v88 (ix3 b r c)))
          * (mr (ix2 b r) * mc (ix2 b c)) := by
  unfold k0_pay14 err root sqDist
  simp only [addf_apply, subf_apply, mulf_apply, maximumf_apply, minimumf_apply, broadcast_apply, select_apply, cmpf_apply, sqrt_apply,
    bcast_col_apply, bcast_row_apply, cast_flat_col_apply, cast_flat_row_apply, pay13_apply, h90]
  rfl

end Cert.PairLoss.Tile

end
-- ==== Proof.TileSum.lean ====
/-
  One tile's contribution: the three sums that reduce the square of pairs to one number, and with them the two
  accumulators after the tile as the accumulators before it plus the tile's sums of the masked error and of the mask.
-/
import proofs.«117279_j27805618274450_2_alg».proof.Proof.TilePay

noncomputable section

open scoped BigOperators

namespace Cert.PairLoss.Tile

open Idealize.ShloMosaic Idealize.ShloMosaic.ValueIdx Cert.KernelIdeal Cert.KernelIdeal.Gen

/-- The numerator's accumulator after a tile: what it held plus the sum of the tile's square over batch, rows, columns. -/
theorem pay1_apply (v : FVec Ideal S4x256x256 .f32) (acc : Vec Ideal S1x1 .f32) :
    k0_pay1 (F := Ideal) v acc (ix2 (0 : Fin 1) (0 : Fin 1))
      = acc (ix2 (0 : Fin 1) (0 : Fin 1)) + ∑ b : Fin 4, ∑ r : Fin 256, ∑ c : Fin 256, v (ix3 b r c) := by
  unfold k0_pay1
  simp only [addf_apply, shapeCast_self]
  refine congrArg (fun x => acc (ix2 (0 : Fin 1) (0 : Fin 1)) + x) ?_
  refine (reduce_b _ _ _ _ 0 0).trans (Finset.sum_congr rfl fun b _ => ?_)
  refine (cast_41_411_apply _ _ b 0 0).trans ?_
  refine (reduce_r _ _ _ _ b 0).trans (Finset.sum_congr rfl fun r _ => ?_)
  refine (cast_flat_col_apply _ _ b r 0).trans ?_
  exact reduce_c _ _ _ _ b r

/-- The denominator's accumulator after a tile, likewise. -/
theorem pay2_apply (v : FVec Ideal S4x256x256 .f32) (acc : Vec Ideal S1x1 .f32) :
    k0_pay2 (F := Ideal) v acc (ix2 (0 : Fin 1) (0 : Fin 1))
      = acc (ix2 (0 : Fin 1) (0 : Fin 1)) + ∑ b : Fin 4, ∑ r : Fin 256, ∑ c : Fin 256, v (ix3 b r c) := by
  unfold k0_pay2
  simp only [addf_apply, shapeCast_self]
  refine congrArg (fun x => acc (ix2 (0 : Fin 1) (0 : Fin 1)) + x) ?_
  refine (reduce_b _ _ _ _ 0 0).trans (Finset.sum_congr rfl fun b _ => ?_)
  refine (cast_41_411_apply _ _ b 0 0).trans ?_
  refine (reduce_r _ _ _ _ b 0).trans (Finset.sum_congr rfl fun r _ => ?_)
  refine (cast_flat_col_apply _ _ b r 0).trans ?_
  exact reduce_c _ _ _ _ b r

/-- The numerator after a tile: the accumulator plus the sum over the tile's pairs of the masked error. -/
theorem tile_num (zr zc zhr zhc : Vec Ideal S4x3x256 .f32) (sqzr sqzc sqzhr sqzhc mr mc : Vec Ideal S4x256 .f32)
    (accN : Vec Ideal S1x1 .f32) :
    k0_pay1 (F := Ideal)
        (k0_pay14 (k0_pay8 (k0_pay5 zhr) (k0_pay6 zhc)) (k0_pay9 sqzhr) (k0_pay10 sqzhc)
          (k0_pay11 (k0_pay7 zr zc) sqzr sqzc) (k0_pay12 (k0_pay7 zr zc) sqzr sqzc) mr mc)
        accN (ix2 (0 : Fin 1) (0 : Fin 1))
      = accN (ix2 (0 : Fin 1) (0 : Fin 1)) + ∑ b : Fin 4, ∑ r : Fin 256, ∑ c : Fin 256,
          err (root (sqDist (sqzhr (ix2 b r)) (sqzhc (ix2 b c)) (∑ d : Fin 3, zhr (ix3 b d r) * zhc (ix3 b d c))))
              (root (sqDist (sqzr (ix2 b r)) (sqzc (ix2 b c)) (∑ d : Fin 3, zr (ix3 b d r) * zc (ix3 b d c))))
            * (mr (ix2 b r) * mc (ix2 b c)) := by
  refine (pay1_apply _ accN).trans (congrArg (fun x => accN (ix2 (0 : Fin 1) (0 : Fin 1)) + x) ?_)
  refine Finset.sum_congr rfl fun b _ => Finset.sum_congr rfl fun r _ => Finset.sum_congr rfl fun c _ => ?_
  refine (pay14_apply _ _ _ _ _ mr mc b r c (pay12_apply _ _ _ b r c)).trans ?_
  rw [pay5_eq, pay6_eq, pay9_eq, pay10_eq, pay8_apply, pay11_apply, pay7_apply]

/-- The denominator after a tile: the accumulator plus the sum over the tile's pairs of the pair mask. -/
theorem tile_den (mr mc : Vec Ideal S4x256 .f32) (accD : Vec Ideal S1x1 .f32) :
    k0_pay2 (F := Ideal) (k0_pay13 mr mc) accD (ix2 (0 : Fin 1) (0 : Fin 1))
      = accD (ix2 (0 : Fin 1) (0 : Fin 1)) + ∑ b : Fin 4, ∑ r : Fin 256, ∑ c : Fin 256, mr (ix2 b r) * mc (ix2 b c) := by
  refine (pay2_apply _ accD).trans (congrArg (fun x => accD (ix2 (0 : Fin 1) (0 : Fin 1)) + x) ?_)
  exact Finset.sum_congr rfl fun b _ => Finset.sum_congr rfl fun r _ => Finset.sum_congr rfl fun c _ =>
    pay13_apply mr mc b r c

end Cert.PairLoss.Tile

end
-- ==== Proof.Tiles.lean ====
/-
  Summing over a 12 × 12 grid of 256 × 256 tiles is summing over all 3072 × 3072 pairs, and a running
  total that starts at zero and adds one term per step ends at the sum of the terms.
-/
import Mathlib.Algebra.BigOperators.Fin
import Mathlib.Logic.Equiv.Fin.Basic

open scoped BigOperators

namespace Cert.PairLoss.Tiles

variable {M : Type*} [AddCommMonoid M]

/-- An index below 3072 is a tile number below 12 and a position below 256 inside the tile. -/
theorem sum_split (g : Fin 3072 → M) :
    ∑ n : Fin 3072, g n = ∑ i : Fin 12, ∑ r : Fin 256, g ⟨256 * i.val + r.val, by omega⟩ := by
  have h := (finProdFinEquiv (m := 12) (n := 256)).sum_comp g
  rw [← h, Fintype.sum_prod_type]
  refine Finset.sum_congr rfl fun i _ => Finset.sum_congr rfl fun r _ => ?_
  congr 1
  apply Fin.ext
  show r.val + 256 * i.val = 256 * i.val + r.val
  omega

/-- A grid point below 144 is a row tile (its quotient by 12) and a column tile (its remainder). -/
theorem sum_grid (h : Fin 12 → Fin 12 → M) :
    ∑ t : Fin 144, h ⟨t.val / 12, by omega⟩ ⟨t.val % 12, by omega⟩ = ∑ i : Fin 12, ∑ j : Fin 12, h i j := by
  have e := (finProdFinEquiv (m := 12) (n := 12)).symm.sum_comp (fun p : Fin 12 × Fin 12 => h p.1 p.2)
  rw [Fintype.sum_prod_type] at e
  rw [← e]
  rfl

/-- The sum over the grid points of the sums over the tiles is the sum over all pairs. -/
theorem sum_tiles (f : Fin 4 → Fin 3072 → Fin 3072 → M) :
    ∑ t : Fin 144, ∑ b : Fin 4, ∑ r : Fin 256, ∑ c : Fin 256,
        f b ⟨256 * (t.val / 12) + r.val, by omega⟩ ⟨256 * (t.val % 12) + c.val, by omega⟩
      = ∑ b : Fin 4, ∑ n : Fin 3072, ∑ k : Fin 3072, f b n k := by
  have hg := sum_grid (fun i j : Fin 12 => ∑ b : Fin 4, ∑ r : Fin 256, ∑ c : Fin 256,
      f b ⟨256 * i.val + r.val, by omega⟩ ⟨256 * j.val + c.val, by omega⟩)
  calc _ = ∑ i : Fin 12, ∑ j : Fin 12, ∑ b : Fin 4, ∑ r : Fin 256, ∑ c : Fin 256,
            f b ⟨256 * i.val + r.val, by omega⟩ ⟨256 * j.val + c.val, by omega⟩ := hg
    _ = ∑ b : Fin 4, ∑ i : Fin 12, ∑ j : Fin 12, ∑ r : Fin 256, ∑ c : Fin 256,
            f b ⟨256 * i.val + r.val, by omega⟩ ⟨256 * j.val + c.val, by omega⟩ := by
          refine Eq.trans (Finset.sum_congr rfl fun i _ => Finset.sum_comm) ?_
          exact Finset.sum_comm
    _ = ∑ b : Fin 4, ∑ i : Fin 12, ∑ r : Fin 256, ∑ j : Fin 12, ∑ c : Fin 256,
            f b ⟨256 * i.val + r.val, by omega⟩ ⟨256 * j.val + c.val, by omega⟩ := by
          exact Finset.sum_congr rfl fun b _ => Finset.sum_congr rfl fun i _ => Finset.sum_comm
    _ = _ := by
          refine Finset.sum_congr rfl fun b _ => ?_
          rw [sum_split]
          refine Finset.sum_congr rfl fun i _ => Finset.sum_congr rfl fun r _ => ?_
          rw [sum_split]

/-- A running total: from `a 0 = z + s 0` and `a (t+1) = a t + s (t+1)`, `a n = z + ∑ t ≤ n, s t`. -/
theorem fold_range (a s : ℕ → M) (z : M) (N : ℕ) (h0 : a 0 = z + s 0)
    (hs : ∀ t, t + 1 < N → a (t + 1) = a t + s (t + 1)) :
    ∀ n, n < N → a n = z + ∑ t ∈ Finset.range (n + 1), s t := by
  intro n
  induction n with
  | zero => intro _; simp [h0]
  | succ n ih =>
    intro hn
    rw [hs n hn, ih (by omega), Finset.sum_range_succ _ (n + 1), add_assoc]

/-- The running total over the 144 grid points, started at zero, ends at the sum of the 144 terms. -/
theorem fold_grid (a s : ℕ → M) (z : M) (hz : z = 0) (h0 : a 0 = z + s 0)
    (hs : ∀ t, t + 1 < 144 → a (t + 1) = a t + s (t + 1)) :
    a 143 = ∑ t : Fin 144, s t.val := by
  rw [fold_range a s z 144 h0 hs 143 (by omega), hz, zero_add, Fin.sum_univ_eq_sum_range]

end Cert.PairLoss.Tiles
-- ==== Proof.KITotal.lean ====
/-
  The two accumulators after the last of the 144 grid points are the loss's two sums.

  Each grid point adds its tile's sum to what the point before left, the first to zero; the tiles' pairs are
  all the pairs, each once. The windows' blocks enter through ten hypotheses that read a block at an index as the
  coordinate array at the tile's row or column.
-/
import proofs.«117279_j27805618274450_2_alg».proof.Proof.KIAcc
import proofs.«117279_j27805618274450_2_alg».proof.Proof.TileSum
import proofs.«117279_j27805618274450_2_alg».proof.Proof.Tiles

noncomputable section

open scoped BigOperators

namespace Cert.PairLoss.Total

open Idealize.ShloMosaic Idealize.ShloMosaic.ValueIdx Idealize.ShloMosaic.TcCoe
open Idealize.SL Idealize.SL.Sem
open Cert.KernelIdeal Cert.KernelIdeal.Gen Cert.KernelIdeal.Hand Cert.PairLoss.Tile

/-- The grid has 144 points. -/
theorem N144 : cfg0.N = 144 := N_0

/-- A row tile's point index is below 3072. -/
theorem row_lt (t : Fin cfg0.N) (r : Fin 256) : 256 * (t.val / 12) + r.val < 3072 := by
  have h1 : t.val < 144 := lt_of_lt_of_eq t.isLt N144
  have h2 := r.isLt
  omega

/-- A column tile's point index is below 3072. -/
theorem col_lt (t : Fin cfg0.N) (r : Fin 256) : 256 * (t.val % 12) + r.val < 3072 := by
  have h2 := r.isLt
  omega

variable (m : (ℓ : Loc nD τ sig) → Buf (Elt Ideal) ℓ) (ρ : Dev nD → PrngReg) (c : Dev nD)
variable (Z Zh : Fin 4 → Fin 3072 → Fin 3 → EReal) (sq sqh mm : Fin 4 → Fin 3072 → EReal)

/-- The sum of the masked errors over the pairs of the tile at grid point `t`. -/
def tileNum (t : Fin cfg0.N) : EReal :=
  ∑ b : Fin 4, ∑ r : Fin 256, ∑ k : Fin 256,
    masked Z Zh sq sqh mm b ⟨256 * (t.val / 12) + r.val, row_lt t r⟩ ⟨256 * (t.val % 12) + k.val, col_lt t k⟩

/-- The sum of the pair mask over the pairs of the tile at grid point `t`. -/
def tileDen (t : Fin cfg0.N) : EReal :=
  ∑ b : Fin 4, ∑ r : Fin 256, ∑ k : Fin 256,
    pm mm b ⟨256 * (t.val / 12) + r.val, row_lt t r⟩ ⟨256 * (t.val % 12) + k.val, col_lt t k⟩

section Step

variable
  (hb0 : ∀ (t : Fin cfg0.N) (b : Fin 4) (d : Fin 3) (r : Fin 256),
    (iblk m ρ c 0 t : Vec Ideal S4x3x256 .f32) (ix3 b d r) = Z b ⟨256 * (t.val / 12) + r.val, row_lt t r⟩ d)
  (hb1 : ∀ (t : Fin cfg0.N) (b : Fin 4) (d : Fin 3) (r : Fin 256),
    (iblk m ρ c 1 t : Vec Ideal S4x3x256 .f32) (ix3 b d r) = Z b ⟨256 * (t.val % 12) + r.val, col_lt t r⟩ d)
  (hb2 : ∀ (t : Fin cfg0.N) (b : Fin 4) (d : Fin 3) (r : Fin 256),
    (iblk m ρ c 2 t : Vec Ideal S4x3x256 .f32) (ix3 b d r) = Zh b ⟨256 * (t.val / 12) + r.val, row_lt t r⟩ d)
  (hb3 : ∀ (t : Fin cfg0.N) (b : Fin 4) (d : Fin 3) (r : Fin 256),
    (iblk m ρ c 3 t : Vec Ideal S4x3x256 .f32) (ix3 b d r) = Zh b ⟨256 * (t.val % 12) + r.val, col_lt t r⟩ d)
  (hb4 : ∀ (t : Fin cfg0.N) (b : Fin 4) (r : Fin 256),
    (iblk m ρ c 4 t : Vec Ideal S4x256 .f32) (ix2 b r) = sq b ⟨256 * (t.val / 12) + r.val, row_lt t r⟩)
  (hb5 : ∀ (t : Fin cfg0.N) (b : Fin 4) (r : Fin 256),
    (iblk m ρ c 5 t : Vec Ideal S4x256 .f32) (ix2 b r) = sq b ⟨256 * (t.val % 12) + r.val, col_lt t r⟩)
  (hb6 : ∀ (t : Fin cfg0.N) (b : Fin 4) (r : Fin 256),
    (iblk m ρ c 6 t : Vec Ideal S4x256 .f32) (ix2 b r) = sqh b ⟨256 * (t.val / 12) + r.val, row_lt t r⟩)
  (hb7 : ∀ (t : Fin cfg0.N) (b : Fin 4) (r : Fin 256),
    (iblk m ρ c 7 t : Vec Ideal S4x256 .f32) (ix2 b r) = sqh b ⟨256 * (t.val % 12) + r.val, col_lt t r⟩)
  (hb8 : ∀ (t : Fin cfg0.N) (b : Fin 4) (r : Fin 256),
    (iblk m ρ c 8 t : Vec Ideal S4x256 .f32) (ix2 b r) = mm b ⟨256 * (t.val / 12) + r.val, row_lt t r⟩)
  (hb9 : ∀ (t : Fin cfg0.N) (b : Fin 4) (r : Fin 256),
    (iblk m ρ c 9 t : Vec Ideal S4x256 .f32) (ix2 b r) = mm b ⟨256 * (t.val % 12) + r.val, col_lt t r⟩)

include hb0 hb1 hb2 hb3 hb4 hb5 hb6 hb7 hb8 hb9 in
/-- One grid point's step of the error accumulator: what it held plus the tile's sum. -/
theorem stepN_apply (t : Fin cfg0.N) (acc : Vec Ideal S1x1 .f32) :
    stepN (F := Ideal) (iblk m ρ c 0 t) (iblk m ρ c 1 t) (iblk m ρ c 2 t) (iblk m ρ c 3 t) (iblk m ρ c 4 t) (iblk m ρ c 5 t)
        (iblk m ρ c 6 t) (iblk m ρ c 7 t) (iblk m ρ c 8 t) (iblk m ρ c 9 t) acc (ix2 (0 : Fin 1) (0 : Fin 1))
      = acc (ix2 (0 : Fin 1) (0 : Fin 1)) + tileNum Z Zh sq sqh mm t := by
  refine (tile_num (iblk m ρ c 0 t) (iblk m ρ c 1 t) (iblk m ρ c 2 t) (iblk m ρ c 3 t) (iblk m ρ c 4 t) (iblk m ρ c 5 t)
    (iblk m ρ c 6 t) (iblk m ρ c 7 t) (iblk m ρ c 8 t) (iblk m ρ c 9 t) acc).trans ?_
  refine congrArg (fun x => acc (ix2 (0 : Fin 1) (0 : Fin 1)) + x) ?_
  unfold tileNum masked dot pm
  refine Finset.sum_congr rfl fun b _ => Finset.sum_congr rfl fun r _ => Finset.sum_congr rfl fun k _ => ?_
  simp only [hb0 t, hb1 t, hb2 t, hb3 t, hb4 t, hb5 t, hb6 t, hb7 t, hb8 t, hb9 t]

include hb8 hb9 in
/-- One grid point's step of the mask accumulator. -/
theorem stepD_apply (t : Fin cfg0.N) (acc : Vec Ideal S1x1 .f32) :
    stepD (F := Ideal) (iblk m ρ c 8 t) (iblk m ρ c 9 t) acc (ix2 (0 : Fin 1) (0 : Fin 1))
      = acc (ix2 (0 : Fin 1) (0 : Fin 1)) + tileDen mm t := by
  refine (tile_den (iblk m ρ c 8 t) (iblk m ρ c 9 t) acc).trans ?_
  refine congrArg (fun x => acc (ix2 (0 : Fin 1) (0 : Fin 1)) + x) ?_
  unfold tileDen pm
  refine Finset.sum_congr rfl fun b _ => Finset.sum_congr rfl fun r _ => Finset.sum_congr rfl fun k _ => ?_
  simp only [hb8 t, hb9 t]

/-- Both accumulators start at zero. -/
theorem pay3_zero : (k0_pay3 (F := Ideal)) (ix2 (0 : Fin 1) (0 : Fin 1)) = 0 := Ideal.ofBits_zero_f32

theorem pay4_zero : (k0_pay4 (F := Ideal)) (ix2 (0 : Fin 1) (0 : Fin 1)) = 0 := Ideal.ofBits_zero_f32

/-- The error accumulator after grid point `n`, as a sequence over the naturals (zero past the grid). -/
def seqN (n : ℕ) : EReal :=
  if h : n < cfg0.N then (accs m ρ c n h).1 (ix2 (0 : Fin 1) (0 : Fin 1)) else 0

/-- The mask accumulator after grid point `n`, likewise. -/
def seqD (n : ℕ) : EReal :=
  if h : n < cfg0.N then (accs m ρ c n h).2 (ix2 (0 : Fin 1) (0 : Fin 1)) else 0

/-- The tile sums as sequences over the naturals (zero past the grid). -/
def sumN (n : ℕ) : EReal := if h : n < cfg0.N then tileNum Z Zh sq sqh mm ⟨n, h⟩ else 0

def sumD (n : ℕ) : EReal := if h : n < cfg0.N then tileDen mm ⟨n, h⟩ else 0

theorem seqN_of_lt (n : ℕ) (h : n < cfg0.N) : seqN m ρ c n = (accs m ρ c n h).1 (ix2 (0 : Fin 1) (0 : Fin 1)) := dif_pos h

theorem seqD_of_lt (n : ℕ) (h : n < cfg0.N) : seqD m ρ c n = (accs m ρ c n h).2 (ix2 (0 : Fin 1) (0 : Fin 1)) := dif_pos h

theorem sumN_of_lt (n : ℕ) (h : n < cfg0.N) : sumN Z Zh sq sqh mm n = tileNum Z Zh sq sqh mm ⟨n, h⟩ := dif_pos h

theorem sumD_of_lt (n : ℕ) (h : n < cfg0.N) : sumD mm n = tileDen mm ⟨n, h⟩ := dif_pos h

include hb0 hb1 hb2 hb3 hb4 hb5 hb6 hb7 hb8 hb9 in
/-- After the last grid point the error accumulator holds the sum of the masked errors over the batch and all pairs. -/
theorem total_num (h143 : 143 < cfg0.N) :
    (accs m ρ c 143 h143).1 (ix2 (0 : Fin 1) (0 : Fin 1)) = num Z Zh sq sqh mm := by
  have h0lt : 0 < cfg0.N := lt_of_lt_of_eq (by omega : 0 < 144) N144.symm
  have h0 : seqN m ρ c 0 = 0 + sumN Z Zh sq sqh mm 0 := by
    rw [seqN_of_lt m ρ c 0 h0lt, sumN_of_lt Z Zh sq sqh mm 0 h0lt]
    refine (stepN_apply m ρ c Z Zh sq sqh mm hb0 hb1 hb2 hb3 hb4 hb5 hb6 hb7 hb8 hb9 ⟨0, h0lt⟩ (k0_pay3 (F := Ideal))).trans ?_
    rw [pay3_zero]
  have hs : ∀ t, t + 1 < 144 → seqN m ρ c (t + 1) = seqN m ρ c t + sumN Z Zh sq sqh mm (t + 1) := by
    intro t ht
    have h1 : t + 1 < cfg0.N := lt_of_lt_of_eq ht N144.symm
    rw [seqN_of_lt m ρ c (t + 1) h1, seqN_of_lt m ρ c t (Nat.lt_of_succ_lt h1), sumN_of_lt Z Zh sq sqh mm (t + 1) h1]
    exact stepN_apply m ρ c Z Zh sq sqh mm hb0 hb1 hb2 hb3 hb4 hb5 hb6 hb7 hb8 hb9 ⟨t + 1, h1⟩ (accs m ρ c t (Nat.lt_of_succ_lt h1)).1
  have hfold := Tiles.fold_grid (seqN m ρ c) (sumN Z Zh sq sqh mm) 0 rfl h0 hs
  rw [seqN_of_lt m ρ c 143 h143] at hfold
  rw [hfold]
  unfold num
  rw [← Tiles.sum_tiles (fun b n k => masked Z Zh sq sqh mm b n k)]
  refine Finset.sum_congr rfl fun t _ => ?_
  rw [sumN_of_lt Z Zh sq sqh mm t.val (lt_of_lt_of_eq t.isLt N144.symm)]
  rfl

include hb8 hb9 in
/-- After the last grid point the mask accumulator holds the sum of the pair mask over the batch and all pairs. -/
theorem total_den (h143 : 143 < cfg0.N) :
    (accs m ρ c 143 h143).2 (ix2 (0 : Fin 1) (0 : Fin 1)) = den mm := by
  have h0lt : 0 < cfg0.N := lt_of_lt_of_eq (by omega : 0 < 144) N144.symm
  have h0 : seqD m ρ c 0 = 0 + sumD mm 0 := by
    rw [seqD_of_lt m ρ c 0 h0lt, sumD_of_lt mm 0 h0lt]
    refine (stepD_apply m ρ c mm hb8 hb9 ⟨0, h0lt⟩ (k0_pay4 (F := Ideal))).trans ?_
    rw [pay4_zero]
  have hs : ∀ t, t + 1 < 144 → seqD m ρ c (t + 1) = seqD m ρ c t + sumD mm (t + 1) := by
    intro t ht
    have h1 : t + 1 < cfg0.N := lt_of_lt_of_eq ht N144.symm
    rw [seqD_of_lt m ρ c (t + 1) h1, seqD_of_lt m ρ c t (Nat.lt_of_succ_lt h1), sumD_of_lt mm (t + 1) h1]
    exact stepD_apply m ρ c mm hb8 hb9 ⟨t + 1, h1⟩ (accs m ρ c t (Nat.lt_of_succ_lt h1)).2
  have hfold := Tiles.fold_grid (seqD m ρ c) (sumD mm) 0 rfl h0 hs
  rw [seqD_of_lt m ρ c 143 h143] at hfold
  rw [hfold]
  unfold den
  rw [← Tiles.sum_tiles (fun b n k => pm mm b n k)]
  refine Finset.sum_congr rfl fun t _ => ?_
  rw [sumD_of_lt mm t.val (lt_of_lt_of_eq t.isLt N144.symm)]
  rfl

end Step

end Cert.PairLoss.Total

end
-- ==== Proof.KIAfter.lean ====
/-
  The lines after the region, read as a value: the two accumulators' one entries, the second plus the small
  constant, and their quotient.
-/
import proofs.«117279_j27805618274450_2_alg».proof.Proof.KITail
import proofs.«117279_j27805618274450_2_alg».proof.Proof.Spec
import Idealize.ShloMosaic.Lib.StableHlo.Run
import Idealize.ShloMosaic.Lib.ValueLayout

set_option maxRecDepth 16384

noncomputable section

namespace Cert.PairLoss.After

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ) (ρ : Dev nD → PrngReg) (c : Dev nD)

/-- What the last line leaves: the quotient of the first accumulator by the second plus the constant. -/
theorem tail_term :
    StableHlo.after hostOps1 (W1 m ρ c) (dr main_v15)
      = Host.divf (shapeCast S_ ((dats m ρ 0 c).arrAt 10 cfg0.N) shapeCasts_S1x1_S_)
          (addf (shapeCast S_ ((dats m ρ 0 c).arrAt 11 cfg0.N) shapeCasts_S1x1_S_) (constant (F := F) S_ .f32 0x3727C5AC#32)) := by
  have h0 : W1 m ρ c (dr main_v11_0) = (dats m ρ 0 c).arrAt 10 cfg0.N := by
    unfold W1
    rw [Function.update_of_ne (StableHlo.devRef_ne_of_ne (by decide)), Function.update_self]
  have h1 : W1 m ρ c (dr main_v11_1) = (dats m ρ 0 c).arrAt 11 cfg0.N := by
    unfold W1
    rw [Function.update_self]
  dsimp only [hostOps1]
  after_results
  rw [h0, h1]
  rfl

/-- A `[1, 1]` array read as a scalar is its one entry. -/
theorem cast_11_scalar_apply {α : Type} (x : S1x1.Idx → α) (h : S1x1.ShapeCasts S_) :
    shapeCast S_ x h ix0 = x (ix2 (0 : Fin 1) (0 : Fin 1)) :=
  shapeCast_apply x h _ _ (by
    have e1 : S1x1.numel = 1 := by decide
    have e2 : S_.numel = 1 := by decide
    have h1 := (S1x1.rowMajor (ix2 (0 : Fin 1) (0 : Fin 1))).isLt
    have h2 := (S_.rowMajor ix0).isLt
    omega)

/-- The error accumulator's array as the region leaves it, at the extended reals. -/
def outN (m : (ℓ : Loc nD τ sig) → Buf (Elt Ideal) ℓ) (ρ : Dev nD → PrngReg) (c : Dev nD) : S1x1.Idx → EReal :=
  (dats m ρ 0 c).arrAt 10 cfg0.N

/-- The mask accumulator's array as the region leaves it, at the extended reals. -/
def outD (m : (ℓ : Loc nD τ sig) → Buf (Elt Ideal) ℓ) (ρ : Dev nD → PrngReg) (c : Dev nD) : S1x1.Idx → EReal :=
  (dats m ρ 0 c).arrAt 11 cfg0.N

/-- The same line at the extended reals, read at its one index. -/
theorem tail_value (m : (ℓ : Loc nD τ sig) → Buf (Elt Ideal) ℓ) (ρ : Dev nD → PrngReg) (c : Dev nD) :
    (StableHlo.after hostOps1 (W1 m ρ c) (dr main_v15) : S_.Idx → EReal) ix0
      = Ideal.div (outN m ρ c (ix2 (0 : Fin 1) (0 : Fin 1)))
          (outD m ρ c (ix2 (0 : Fin 1) (0 : Fin 1)) + Cert.PairLoss.lit 0x3727C5AC#32) := by
  have ht := congrFun (tail_term (F := Ideal) m ρ c) ix0
  refine ht.trans ?_
  show Ideal.div (shapeCast S_ (outN m ρ c) shapeCasts_S1x1_S_ ix0)
      (shapeCast S_ (outD m ρ c) shapeCasts_S1x1_S_ ix0 + Cert.PairLoss.lit 0x3727C5AC#32) = _
  rw [cast_11_scalar_apply, cast_11_scalar_apply]

end Cert.PairLoss.After

end
-- ==== Proof.KIValue.lean ====
import proofs.«117279_j27805618274450_2_alg».proof.Proof.KIFinal
import proofs.«117279_j27805618274450_2_alg».proof.Proof.KIPrelude
import proofs.«117279_j27805618274450_2_alg».proof.Proof.KITotal
import proofs.«117279_j27805618274450_2_alg».proof.Proof.KIAfter
import proofs.«117279_j27805618274450_2_alg».proof.Proof.Spec

/-
  The kernel's result is the loss.

  The last line after the region leaves the quotient of the first accumulator array's entry by the second's plus
  the small constant. After the run the two arrays hold the fold's last values; the fold over the 144 tiles is the
  sum over the batch and all pairs, of the masked errors and of the pair mask, at the coordinate readings of the
  arguments the windows' blocks are.
-/

noncomputable section

namespace Cert.PairLoss.KVal

open Cert.KernelIdeal Cert.KernelIdeal.Gen Cert.KernelIdeal.Hand
open Idealize.ShloMosaic Idealize.ShloMosaic.TcCoe Idealize.ShloMosaic.ValueIdx
open Idealize.SL Idealize.SL.Sem
open Cert.PairLoss.Ref

variable (m : (ℓ : Loc nD τ sig) → Buf (Elt Ideal) ℓ) (ρ : Dev nD → PrngReg) (c : Dev nD)

/-- The first accumulator array's entry after the run is the specification's numerator. -/
theorem num_value :
    After.outN m ρ c (ix2 (0 : Fin 1) (0 : Fin 1))
      = num (Zc (m ((c.tc : Thread nD τ).loc main_arg0))) (Zc (m ((c.tc : Thread nD τ).loc main_arg1))) (sqc (m ((c.tc : Thread nD τ).loc main_arg0))) (sqc (m ((c.tc : Thread nD τ).loc main_arg1))) (mc (m ((c.tc : Thread nD τ).loc main_arg2))) := by
  have e : After.outN m ρ c = KFin.last10 m ρ c := KFin.arr10_final m ρ c
  rw [e]
  exact Total.total_num m ρ c _ _ _ _ _ (KPre.iblk0_eq m ρ c) (KPre.iblk1_eq m ρ c) (KPre.iblk2_eq m ρ c)
    (KPre.iblk3_eq m ρ c) (KPre.iblk4_eq m ρ c) (KPre.iblk5_eq m ρ c) (KPre.iblk6_eq m ρ c) (KPre.iblk7_eq m ρ c)
    (KPre.iblk8_eq m ρ c) (KPre.iblk9_eq m ρ c) KFin.lastLt

/-- The second accumulator array's entry after the run is the sum of the pair mask. -/
theorem den_value :
    After.outD m ρ c (ix2 (0 : Fin 1) (0 : Fin 1))
      = den (mc (m ((c.tc : Thread nD τ).loc main_arg2))) := by
  have e : After.outD m ρ c = KFin.last11 m ρ c := KFin.arr11_final m ρ c
  rw [e]
  exact Total.total_den m ρ c _ (KPre.iblk8_eq m ρ c) (KPre.iblk9_eq m ρ c) KFin.lastLt

/-- THE KERNEL'S RESULT: the buffer the last line writes holds, at its one index, the loss at the coordinate
    readings of the truth (first argument), the prediction (second argument) and the mask (third argument). -/
theorem kernel_value :
    StableHlo.after hostOps1 (W1 m ρ c) (dr main_v15)
      = fun _ => loss (Zc (m ((c.tc : Thread nD τ).loc main_arg0))) (Zc (m ((c.tc : Thread nD τ).loc main_arg1))) (sqc (m ((c.tc : Thread nD τ).loc main_arg0))) (sqc (m ((c.tc : Thread nD τ).loc main_arg1))) (mc (m ((c.tc : Thread nD τ).loc main_arg2))) := by
  funext i
  obtain rfl : i = ix0 := eq_ix0 i
  refine (After.tail_value m ρ c).trans ?_
  rw [num_value, den_value]
  rfl

end Cert.PairLoss.KVal

end
-- ==== Proof.RefValue2.lean ====
import proofs.«117279_j27805618274450_2_alg».proof.Proof.RefValue

/-
  The reference program's two total sums and its quotient: the value of the reference is the loss of the
  specification at the coordinate readings of its own first stages.
-/

noncomputable section

open scoped BigOperators

namespace Cert.PairLoss.Ref

open Cert.ReferenceIdeal Cert.ReferenceIdeal.Gen Cert.ReferenceIdeal.Read Idealize.ShloMosaic
open Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The word of the float zero is the extended real zero. -/
theorem lit_zero : (FloatOps.ofBits (F := Ideal) .f32 0x00000000#32 : EReal) = 0 := Ideal.ofBits_zero_f32

/-- The first total sum is the specification's numerator. -/
theorem num_eq (a0 a1 : Pts) (a2 : Msk) (i : S_.Idx) :
    val_main_v57 (F := Ideal) a0 a1 a2 i = num (Zc a0) (Zc a1) (sqc a0) (sqc a1) (mc a2) := by
  rw [val_main_v57_apply, val_main_cst_15_apply, lit_zero, zero_add, sum_idx3]
  simp only [masked_at]
  rfl

/-- The second total sum is the specification's sum of the pair mask. -/
theorem den_eq (a2 : Msk) (i : S_.Idx) :
    val_main_v58 (F := Ideal) a2 i = den (mc a2) := by
  rw [val_main_v58_apply, val_main_cst_16_apply, lit_zero, zero_add, sum_idx3]
  simp only [pm_at]
  rfl

/-- THE REFERENCE IS THE SPECIFICATION: its value, a scalar, is the loss at the coordinate readings of the truth
    (first argument), the prediction (second argument) and the mask (third argument). -/
theorem ref_eq (a0 a1 : Pts) (a2 : Msk) :
    val_main_v60 (F := Ideal) a0 a1 a2 = fun _ => loss (Zc a0) (Zc a1) (sqc a0) (sqc a1) (mc a2) := by
  funext i
  rw [val_main_v60_apply, val_main_v59_apply, num_eq, den_eq, val_main_cst_17_apply]
  rfl

end Cert.PairLoss.Ref

end
-- ==== Proof.Claims.lean ====
/-
  The five claims of the pairwise-loss certificate.

  Each kernel program's run (the word-level one and the idealized one, by the same proof over any float values) ends
  with the three arguments unchanged and the result at the quotient the last lines compute from the two
  accumulators' final arrays. At the ideal instance the accumulators are the sums, over the 144 tiles, of the masked
  clamped errors and of the pair mask; regrouping the tiles into the whole pair grid (addition on the extended reals
  is commutative and associative, nothing else is used) gives the reference's two full sums, and the two programs'
  quotients are the same extended real.
-/
import proofs.«117279_j27805618274450_2_alg».proof.Defs
import proofs.«117279_j27805618274450_2_alg».proof.Proof.Gen.Pre_finite_inputs
import proofs.«117279_j27805618274450_2_alg».proof.Proof.Gen.Kernel
import proofs.«117279_j27805618274450_2_alg».proof.Proof.Gen.KernelIdeal
import proofs.«117279_j27805618274450_2_alg».proof.Proof.Gen.ReferenceIdeal
import proofs.«117279_j27805618274450_2_alg».proof.Proof.KIRun
import proofs.«117279_j27805618274450_2_alg».proof.Proof.KBRun
import proofs.«117279_j27805618274450_2_alg».proof.Proof.KIValue
import proofs.«117279_j27805618274450_2_alg».proof.Proof.RefValue2

noncomputable section

namespace Cert.Proof.PairLossClaims

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the loss of the arguments: the kernel's accumulated tile sums are the
    reference's full sums. -/
theorem algebraic : Cert.algebraic_KernelIdeal_ReferenceIdeal := by
  intro m ρ m' ρ' _ hagree
  refine ⟨fun c => StableHlo.after Cert.KernelIdeal.Gen.hostOps1 (Cert.KernelIdeal.Hand.W1 m ρ c) (Cert.KernelIdeal.Hand.dr Cert.KernelIdeal.main_v15),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.PairLoss.Ref.ref_eq, (hagree c).1, (hagree c).2.1, (hagree c).2.2]
  exact (Cert.PairLoss.KVal.kernel_value m ρ c).symm

end Cert.Proof.PairLossClaims

end
-- ==== Proof.lean ====
/-
  The pairwise distance loss: a Pallas kernel that accumulates, tile by tile of the pair grid, the masked clamped
  squared errors of predicted against true distances and the pair mask, against the plain jnp reference that forms
  both sums at once. The claims are proved in Proof/Claims.lean; the programs' stated side conditions are the
  instances the generated modules prove.
-/
import proofs.«117279_j27805618274450_2_alg».proof.Defs
import proofs.«117279_j27805618274450_2_alg».proof.Proof.Gen.Kernel
import proofs.«117279_j27805618274450_2_alg».proof.Proof.Gen.KernelIdeal
import proofs.«117279_j27805618274450_2_alg».proof.Proof.Gen.ReferenceIdeal
import proofs.«117279_j27805618274450_2_alg».proof.Proof.Gen.Pre_finite_inputs
import proofs.«117279_j27805618274450_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    PairLossClaims.frame_k, PairLossClaims.frame_ki, PairLossClaims.frame_ri, trivial, PairLossClaims.algebraic⟩

end Cert.Proof

end
